-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512x256 : Shape := ⟨2, ![512, 256]⟩
abbrev S512x1 : Shape := ⟨2, ![512, 1]⟩
abbrev S256x1 : Shape := ⟨2, ![256, 1]⟩
abbrev S524288 : Shape := ⟨1, ![524288]⟩
abbrev S2x524288 : Shape := ⟨2, ![2, 524288]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_
  bcast_S_S256x1 : S_.BroadcastsInDim S256x1 (![] : Fin 0 → Fin S256x1.rank)
  reducesTo_S256x1_S_d0_1 : S256x1.ReducesTo [0, 1] S_
  bcast_S_S524288 : S_.BroadcastsInDim S524288 (![] : Fin 0 → Fin S524288.rank)
  reducesTo_S524288_S_d0 : S524288.ReducesTo [0] S_

variable [Facts]

def fn_part2 {F : FTy → Type} [FloatOps F] (main_arg7 : FVec F S524288 .f32) (main_v33 : IVec S_ 1) : IVec S_ 1 :=
  let main_v34 : FVec F S524288 .f32 := Host.absf main_arg7
  let main_cst_12 : FVec F S_ .f32 := constant S_ .f32 0x7F800000#32
  let main_v35 : FVec F S524288 .f32 := broadcastInDim S524288 ![] bcast_S_S524288 main_cst_12
  let main_v36 : IVec S524288 1 := cmpf .olt main_v34 main_v35
  let main_c_13 : IVec S_ 1 := constantI S_ 1 1#1
  let main_v37 : IVec S_ 1 := (fun x v => Host.reduce IntOp.andi x v reducesTo_S524288_S_d0 h_S_) main_v36 main_c_13
  let main_v38 : IVec S_ 1 := andi main_v33 main_v37
  main_v38

def fn_part1 {F : FTy → Type} [FloatOps F] (main_arg4 : FVec F S512x1 .f32) (main_arg5 : FVec F S256x1 .f32) (main_arg6 : FVec F S256x1 .f32) (main_arg7 : FVec F S524288 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S512x512 .f32) (main_arg2 : FVec F S512x256 .f32) (main_arg3 : FVec F S512x1 .f32) (main_arg4 : FVec F S512x1 .f32) (main_arg5 : FVec F S256x1 .f32) (main_arg6 : FVec F S256x1 .f32) (main_arg7 : FVec F S524288 .f32) (main_arg8 : IVec S2x524288 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_arg5 main_arg6 main_arg7 main_v13 main_v16
-- ==== Kernel.lean ====
abbrev S16384x512 : Shape := ⟨2, ![16384, 512]⟩
abbrev S512x512 : Shape := ⟨2, ![512, 512]⟩
abbrev S512x256 : Shape := ⟨2, ![512, 256]⟩
abbrev S512x1 : Shape := ⟨2, ![512, 1]⟩
abbrev S256x1 : Shape := ⟨2, ![256, 1]⟩
abbrev S524288 : Shape := ⟨1, ![524288]⟩
abbrev S2x524288 : Shape := ⟨2, ![2, 524288]⟩
abbrev S1x524288 : Shape := ⟨2, ![1, 524288]⟩
abbrev S16384x1 : Shape := ⟨2, ![16384, 1]⟩
abbrev S16384 : Shape := ⟨1, ![16384]⟩
abbrev S_ : Shape := ⟨0, ![]⟩
abbrev S524288x1 : Shape := ⟨2, ![524288, 1]⟩
abbrev S524288x512 : Shape := ⟨2, ![524288, 512]⟩
abbrev S16384x256 : Shape := ⟨2, ![16384, 256]⟩
abbrev S524288x256 : Shape := ⟨2, ![524288, 256]⟩
abbrev S16384x16384 : Shape := ⟨2, ![16384, 16384]⟩
abbrev S1024x256 : Shape := ⟨2, ![1024, 256]⟩
abbrev S1024x1024 : Shape := ⟨2, ![1024, 1024]⟩

abbrev nBuf : Space → Nat
  | .hbm => 142
  | .vmem => 18
  | .smem => 0
  | _ => 0

abbrev hbmTy0_0 (i : Nat) : BufTy := match i % 128 with
  | 0 => ⟨S16384x512, .f32⟩
  | 1 => ⟨S512x512, .f32⟩
  | 2 => ⟨S512x256, .f32⟩
  | 3 => ⟨S512x1, .f32⟩
  | 4 => ⟨S512x1, .f32⟩
  | 5 => ⟨S256x1, .f32⟩
  | 6 => ⟨S256x1, .f32⟩
  | 7 => ⟨S524288, .f32⟩
  | 8 => ⟨S2x524288, .i32⟩
  | 9 => ⟨S1x524288, .i32⟩
  | 10 => ⟨S524288, .i32⟩
  | 11 => ⟨S1x524288, .i32⟩
  | 12 => ⟨S524288, .i32⟩
  | 13 => ⟨S16384x512, .f32⟩
  | 14 => ⟨S16384x1, .f32⟩
  | 15 => ⟨S16384, .f32⟩
  | 16 => ⟨S16384x1, .f32⟩
  | 17 => ⟨S16384, .f32⟩
  | 18 => ⟨S_, .i32⟩
  | 19 => ⟨S524288, .i32⟩
  | 20 => ⟨S524288, .i1⟩
  | 21 => ⟨S_, .i32⟩
  | 22 => ⟨S524288, .i32⟩
  | 23 => ⟨S524288, .i32⟩
  | 24 => ⟨S524288, .i32⟩
  | 25 => ⟨S524288x1, .i32⟩
  | 26 => ⟨S524288, .f32⟩
  | 27 => ⟨S_, .i32⟩
  | 28 => ⟨S524288, .i32⟩
  | 29 => ⟨S524288, .i1⟩
  | 30 => ⟨S_, .i32⟩
  | 31 => ⟨S524288, .i32⟩
  | 32 => ⟨S524288, .i32⟩
  | 33 => ⟨S524288, .i32⟩
  | 34 => ⟨S524288x1, .i32⟩
  | 35 => ⟨S524288, .f32⟩
  | 36 => ⟨S524288, .f32⟩
  | 37 => ⟨S524288, .f32⟩
  | 38 => ⟨S524288, .f32⟩
  | 39 => ⟨S524288, .f32⟩
  | 40 => ⟨S_, .f32⟩
  | 41 => ⟨S524288, .f32⟩
  | 42 => ⟨S524288, .f32⟩
  | 43 => ⟨S_, .f32⟩
  | 44 => ⟨S524288, .f32⟩
  | 45 => ⟨S524288, .f32⟩
  | 46 => ⟨S524288, .f32⟩
  | 47 => ⟨S_, .f32⟩
  | 48 => ⟨S16384, .f32⟩
  | 49 => ⟨S524288x1, .i32⟩
  | 50 => ⟨S16384, .f32⟩
  | 51 => ⟨S_, .i32⟩
  | 52 => ⟨S524288, .i32⟩
  | 53 => ⟨S524288, .i1⟩
  | 54 => ⟨S_, .i32⟩
  | 55 => ⟨S524288, .i32⟩
  | 56 => ⟨S524288, .i32⟩
  | 57 => ⟨S524288, .i32⟩
  | 58 => ⟨S524288x1, .i32⟩
  | 59 => ⟨S524288, .f32⟩
  | 60 => ⟨S524288, .f32⟩
  | 61 => ⟨S524288x1, .f32⟩
  | 62 => ⟨S_, .i32⟩
  | 63 => ⟨S524288, .i32⟩
  | 64 => ⟨S524288, .i1⟩
  | 65 => ⟨S_, .i32⟩
  | 66 => ⟨S524288, .i32⟩
  | 67 => ⟨S524288, .i32⟩
  | 68 => ⟨S524288, .i32⟩
  | 69 => ⟨S524288x1, .i32⟩
  | 70 => ⟨S524288x512, .f32⟩
  | 71 => ⟨S524288x512, .f32⟩
  | 72 => ⟨S524288x512, .f32⟩
  | 73 => ⟨S_, .f32⟩
  | 74 => ⟨S16384x512, .f32⟩
  | 75 => ⟨S524288x1, .i32⟩
  | 76 => ⟨S16384x512, .f32⟩
  | 77 => ⟨S16384x256, .f32⟩
  | 78 => ⟨S16384x1, .f32⟩
  | 79 => ⟨S16384, .f32⟩
  | 80 => ⟨S16384x1, .f32⟩
  | 81 => ⟨S16384, .f32⟩
  | 82 => ⟨S_, .i32⟩
  | 83 => ⟨S524288, .i32⟩
  | 84 => ⟨S524288, .i1⟩
  | 85 => ⟨S_, .i32⟩
  | 86 => ⟨S524288, .i32⟩
  | 87 => ⟨S524288, .i32⟩
  | 88 => ⟨S524288, .i32⟩
  | 89 => ⟨S524288x1, .i32⟩
  | 90 => ⟨S524288, .f32⟩
  | 91 => ⟨S_, .i32⟩
  | 92 => ⟨S524288, .i32⟩
  | 93 => ⟨S524288, .i1⟩
  | 94 => ⟨S_, .i32⟩
  | 95 => ⟨S524288, .i32⟩
  | 96 => ⟨S524288, .i32⟩
  | 97 => ⟨S524288, .i32⟩
  | 98 => ⟨S524288x1, .i32⟩
  | 99 => ⟨S524288, .f32⟩
  | 100 => ⟨S524288, .f32⟩
  | 101 => ⟨S524288, .f32⟩
  | 102 => ⟨S524288, .f32⟩
  | 103 => ⟨S524288, .f32⟩
  | 104 => ⟨S_, .f32⟩
  | 105 => ⟨S524288, .f32⟩
  | 106 => ⟨S524288, .f32⟩
  | 107 => ⟨S_, .f32⟩
  | 108 => ⟨S524288, .f32⟩
  | 109 => ⟨S524288, .f32⟩
  | 110 => ⟨S524288, .f32⟩
  | 111 => ⟨S_, .f32⟩
  | 112 => ⟨S16384, .f32⟩
  | 113 => ⟨S524288x1, .i32⟩
  | 114 => ⟨S16384, .f32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S524288x1, .i32⟩
  | 123 => ⟨S524288, .f32⟩
  | 124 => ⟨S524288, .f32⟩
  | 125 => ⟨S524288x1, .f32⟩
  | 126 => ⟨S_, .i32⟩
  | 127 => ⟨S524288, .i32⟩
  | _ => ⟨S16384x512, .f32⟩

abbrev hbmTy0_1 (i : Nat) : BufTy := match i % 128 with
  | 0 => ⟨S524288, .i1⟩
  | 1 => ⟨S_, .i32⟩
  | 2 => ⟨S524288, .i32⟩
  | 3 => ⟨S524288, .i32⟩
  | 4 => ⟨S524288, .i32⟩
  | 5 => ⟨S524288x1, .i32⟩
  | 6 => ⟨S524288x256, .f32⟩
  | 7 => ⟨S524288x256, .f32⟩
  | 8 => ⟨S524288x256, .f32⟩
  | 9 => ⟨S_, .f32⟩
  | 10 => ⟨S16384x256, .f32⟩
  | 11 => ⟨S524288x1, .i32⟩
  | 12 => ⟨S16384x256, .f32⟩
  | 13 => ⟨S16384x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x1024, .f32⟩
  | .local _ .vmem, ⟨17, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_10 : Ref sig .tc := ⟨.hbm, 82, rfl⟩
abbrev main_v61 : Ref sig .tc := ⟨.hbm, 83, rfl⟩
abbrev main_v62 : Ref sig .tc := ⟨.hbm, 84, rfl⟩
abbrev main_c_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_17 : Ref sig .tc := ⟨.hbm, 115, rfl⟩
abbrev main_v87 : Ref sig .tc := ⟨.hbm, 116, rfl⟩
abbrev main_v88 : Ref sig .tc := ⟨.hbm, 117, rfl⟩
abbrev main_c_18 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_19 : Ref sig .tc := ⟨.hbm, 126, rfl⟩
abbrev main_v96 : Ref sig .tc := ⟨.hbm, 127, rfl⟩
abbrev main_v97 : Ref sig .tc := ⟨.hbm, 128, rfl⟩
abbrev main_c_20 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_21 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![32, 1, 1], ![false, false, false]⟩

def k1_cond2 (i : grid1.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  shapeCasts_S16384x1_S16384 : S16384x1.ShapeCasts S16384
  bcast_S_S524288 : S_.BroadcastsInDim S524288 (![] : Fin 0 → Fin S524288.rank)
  bcast_S524288_S524288x1_0 : S524288.BroadcastsInDim S524288x1 (![0] : Fin 1 → Fin S524288x1.rank)
  bcast_S_S16384 : S_.BroadcastsInDim S16384 (![] : Fin 0 → Fin S16384.rank)
  bcast_S524288x1_S524288x512_0_1 : S524288x1.BroadcastsInDim S524288x512 (![0, 1] : Fin 2 → Fin S524288x512.rank)
  bcast_S_S16384x512 : S_.BroadcastsInDim S16384x512 (![] : Fin 0 → Fin S16384x512.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  dot_S512x512_S512x512_S512x512_1_0_0_1_n_n_wf : DotDims.WF S512x512 S512x512 S512x512 [1] [0] [0] [1] [] []
  dot_S16384x512_S512x1_S16384x1_1_0_0_1_n_n_wf : DotDims.WF S16384x512 S512x1 S16384x1 [1] [0] [0] [1] [] []
  gather_S16384_S524288x1_S524288_n_0_n_n_0_1_1_wf : GatherDims.WF S16384 S524288x1 S524288 [] [0] [] [0] [] 1 ![1]
  scatter_S16384_S524288x1_S524288_n_0_0_1_wf : ScatterDims.WF S16384 S524288x1 S524288 [] [0] [0] 1
  gather_S16384x512_S524288x1_S524288x512_1_0_n_n_0_1_1512_wf : GatherDims.WF S16384x512 S524288x1 S524288x512 [1] [0] [] [0] [] 1 ![1, 512]
  scatter_S16384x512_S524288x1_S524288x512_1_0_0_1_wf : ScatterDims.WF S16384x512 S524288x1 S524288x512 [1] [0] [0] 1
  dot_S512x512_S512x256_S512x256_1_0_0_1_n_n_wf : DotDims.WF S512x512 S512x256 S512x256 [1] [0] [0] [1] [] []
  dot_S16384x256_S256x1_S16384x1_1_0_0_1_n_n_wf : DotDims.WF S16384x256 S256x1 S16384x1 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S16384x512.size a
  hwx1_0 : ∀ i : grid1.Coords, EltTy.bits .f32 = 32 ∨ (Rect.block (s := S16384x512) S512x512.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S16384x256.size a
  hwx1_2 : ∀ i : grid1.Coords, EltTy.bits .f32 = 32 ∨ (Rect.block (s := S16384x256) S512x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S16384x256.size a
  hwx2_0 : ∀ i : grid2.Coords, EltTy.bits .f32 = 32 ∨ (Rect.block (s := S16384x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S16384x256.size a
  hwx2_1 : ∀ i : grid2.Coords, EltTy.bits .f32 = 32 ∨ (Rect.block (s := S16384x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S16384x16384.size a
  hwx2_2 : ∀ i : grid2.Coords, EltTy.bits .f32 = 32 ∨ (Rect.block (s := S16384x16384) S1024x1024.size (cc2_transform_2 i) (hinb2_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384x512_S524288x1_S524288x512_1_0_n_n_0_1_1512 : GatherDims S16384x512 S524288x1 S524288x512 where
  offsetDims := [1]
  collapsedSliceDims := [0]
  operandBatchingDims := []
  startIndicesBatchingDims := []
  startIndexMap := [0]
  indexVectorDim := 1
  sliceSizes := ![1, 512]
  wf := gather_S16384x512_S524288x1_S524288x512_1_0_n_n_0_1_1512_wf
def scatter_S16384x512_S524288x1_S524288x512_1_0_0_1 : ScatterDims S16384x512 S524288x1 S524288x512 where
  updateWindowDims := [1]
  insertedWindowDims := [0]
  scatterDimsToOperandDims := [0]
  indexVectorDim := 1
  wf := scatter_S16384x512_S524288x1_S524288x512_1_0_0_1_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v55) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v107) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v107) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v108) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512x256 : Shape := ⟨2, ![512, 256]⟩
abbrev S512x1 : Shape := ⟨2, ![512, 1]⟩
abbrev S256x1 : Shape := ⟨2, ![256, 1]⟩
abbrev S524288 : Shape := ⟨1, ![524288]⟩
abbrev S2x524288 : Shape := ⟨2, ![2, 524288]⟩
abbrev S1x524288 : Shape := ⟨2, ![1, 524288]⟩
abbrev S16384x1 : Shape := ⟨2, ![16384, 1]⟩
abbrev S16384 : Shape := ⟨1, ![16384]⟩
abbrev S_ : Shape := ⟨0, ![]⟩
abbrev S524288x1 : Shape := ⟨2, ![524288, 1]⟩
abbrev S524288x512 : Shape := ⟨2, ![524288, 512]⟩
abbrev S16384x256 : Shape := ⟨2, ![16384, 256]⟩
abbrev S524288x256 : Shape := ⟨2, ![524288, 256]⟩
abbrev S256x16384 : Shape := ⟨2, ![256, 16384]⟩
abbrev S16384x16384 : Shape := ⟨2, ![16384, 16384]⟩

abbrev nBuf : Space → Nat
  | .hbm => 151
  | .vmem => 0
  | .smem => 0
  | _ => 0

abbrev hbmTy0_0 (i : Nat) : BufTy := match i % 128 with
  | 0 => ⟨S16384x512, .f32⟩
  | 1 => ⟨S512x512, .f32⟩
  | 2 => ⟨S512x256, .f32⟩
  | 3 => ⟨S512x1, .f32⟩
  | 4 => ⟨S512x1, .f32⟩
  | 5 => ⟨S256x1, .f32⟩
  | 6 => ⟨S256x1, .f32⟩
  | 7 => ⟨S524288, .f32⟩
  | 8 => ⟨S2x524288, .i32⟩
  | 9 => ⟨S1x524288, .i32⟩
  | 10 => ⟨S524288, .i32⟩
  | 11 => ⟨S1x524288, .i32⟩
  | 12 => ⟨S524288, .i32⟩
  | 13 => ⟨S16384x512, .f32⟩
  | 14 => ⟨S16384x1, .f32⟩
  | 15 => ⟨S16384, .f32⟩
  | 16 => ⟨S16384x1, .f32⟩
  | 17 => ⟨S16384, .f32⟩
  | 18 => ⟨S_, .i32⟩
  | 19 => ⟨S524288, .i32⟩
  | 20 => ⟨S524288, .i1⟩
  | 21 => ⟨S_, .i32⟩
  | 22 => ⟨S524288, .i32⟩
  | 23 => ⟨S524288, .i32⟩
  | 24 => ⟨S524288, .i32⟩
  | 25 => ⟨S524288x1, .i32⟩
  | 26 => ⟨S524288, .f32⟩
  | 27 => ⟨S_, .i32⟩
  | 28 => ⟨S524288, .i32⟩
  | 29 => ⟨S524288, .i1⟩
  | 30 => ⟨S_, .i32⟩
  | 31 => ⟨S524288, .i32⟩
  | 32 => ⟨S524288, .i32⟩
  | 33 => ⟨S524288, .i32⟩
  | 34 => ⟨S524288x1, .i32⟩
  | 35 => ⟨S524288, .f32⟩
  | 36 => ⟨S524288, .f32⟩
  | 37 => ⟨S524288, .f32⟩
  | 38 => ⟨S524288, .f32⟩
  | 39 => ⟨S524288, .f32⟩
  | 40 => ⟨S_, .f32⟩
  | 41 => ⟨S524288, .f32⟩
  | 42 => ⟨S524288, .f32⟩
  | 43 => ⟨S_, .f32⟩
  | 44 => ⟨S524288, .f32⟩
  | 45 => ⟨S524288, .f32⟩
  | 46 => ⟨S524288, .f32⟩
  | 47 => ⟨S_, .f32⟩
  | 48 => ⟨S16384, .f32⟩
  | 49 => ⟨S524288x1, .i32⟩
  | 50 => ⟨S16384, .f32⟩
  | 51 => ⟨S_, .i32⟩
  | 52 => ⟨S524288, .i32⟩
  | 53 => ⟨S524288, .i1⟩
  | 54 => ⟨S_, .i32⟩
  | 55 => ⟨S524288, .i32⟩
  | 56 => ⟨S524288, .i32⟩
  | 57 => ⟨S524288, .i32⟩
  | 58 => ⟨S524288x1, .i32⟩
  | 59 => ⟨S524288, .f32⟩
  | 60 => ⟨S524288, .f32⟩
  | 61 => ⟨S524288x1, .f32⟩
  | 62 => ⟨S_, .i32⟩
  | 63 => ⟨S524288, .i32⟩
  | 64 => ⟨S524288, .i1⟩
  | 65 => ⟨S_, .i32⟩
  | 66 => ⟨S524288, .i32⟩
  | 67 => ⟨S524288, .i32⟩
  | 68 => ⟨S524288, .i32⟩
  | 69 => ⟨S524288x1, .i32⟩
  | 70 => ⟨S524288x512, .f32⟩
  | 71 => ⟨S524288x512, .f32⟩
  | 72 => ⟨S524288x512, .f32⟩
  | 73 => ⟨S_, .f32⟩
  | 74 => ⟨S16384x512, .f32⟩
  | 75 => ⟨S524288x1, .i32⟩
  | 76 => ⟨S16384x512, .f32⟩
  | 77 => ⟨S16384x256, .f32⟩
  | 78 => ⟨S16384x1, .f32⟩
  | 79 => ⟨S16384, .f32⟩
  | 80 => ⟨S16384x1, .f32⟩
  | 81 => ⟨S16384, .f32⟩
  | 82 => ⟨S_, .i32⟩
  | 83 => ⟨S524288, .i32⟩
  | 84 => ⟨S524288, .i1⟩
  | 85 => ⟨S_, .i32⟩
  | 86 => ⟨S524288, .i32⟩
  | 87 => ⟨S524288, .i32⟩
  | 88 => ⟨S524288, .i32⟩
  | 89 => ⟨S524288x1, .i32⟩
  | 90 => ⟨S524288, .f32⟩
  | 91 => ⟨S_, .i32⟩
  | 92 => ⟨S524288, .i32⟩
  | 93 => ⟨S524288, .i1⟩
  | 94 => ⟨S_, .i32⟩
  | 95 => ⟨S524288, .i32⟩
  | 96 => ⟨S524288, .i32⟩
  | 97 => ⟨S524288, .i32⟩
  | 98 => ⟨S524288x1, .i32⟩
  | 99 => ⟨S524288, .f32⟩
  | 100 => ⟨S524288, .f32⟩
  | 101 => ⟨S524288, .f32⟩
  | 102 => ⟨S524288, .f32⟩
  | 103 => ⟨S524288, .f32⟩
  | 104 => ⟨S_, .f32⟩
  | 105 => ⟨S524288, .f32⟩
  | 106 => ⟨S524288, .f32⟩
  | 107 => ⟨S_, .f32⟩
  | 108 => ⟨S524288, .f32⟩
  | 109 => ⟨S524288, .f32⟩
  | 110 => ⟨S524288, .f32⟩
  | 111 => ⟨S_, .f32⟩
  | 112 => ⟨S16384, .f32⟩
  | 113 => ⟨S524288x1, .i32⟩
  | 114 => ⟨S16384, .f32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S524288x1, .i32⟩
  | 123 => ⟨S524288, .f32⟩
  | 124 => ⟨S524288, .f32⟩
  | 125 => ⟨S524288x1, .f32⟩
  | 126 => ⟨S_, .i32⟩
  | 127 => ⟨S524288, .i32⟩
  | _ => ⟨S16384x512, .f32⟩

abbrev hbmTy0_1 (i : Nat) : BufTy := match i % 128 with
  | 0 => ⟨S524288, .i1⟩
  | 1 => ⟨S_, .i32⟩
  | 2 => ⟨S524288, .i32⟩
  | 3 => ⟨S524288, .i32⟩
  | 4 => ⟨S524288, .i32⟩
  | 5 => ⟨S524288x1, .i32⟩
  | 6 => ⟨S524288x256, .f32⟩
  | 7 => ⟨S524288x256, .f32⟩
  | 8 => ⟨S524288x256, .f32⟩
  | 9 => ⟨S_, .f32⟩
  | 10 => ⟨S16384x256, .f32⟩
  | 11 => ⟨S524288x1, .i32⟩
  | 12 => ⟨S16384x256, .f32⟩
  | 13 => ⟨S256x16384, .f32⟩
  | 14 => ⟨S16384x16384, .f32⟩
  | 15 => ⟨S16384x16384, .f32⟩
  | 16 => ⟨S16384x16384, .f32⟩
  | 17 => ⟨S_, .f32⟩
  | 18 => ⟨S16384x16384, .f32⟩
  | 19 => ⟨S16384x16384, .f32⟩
  | 20 => ⟨S_, .f32⟩
  | 21 => ⟨S16384x16384, .f32⟩
  | 22 => ⟨S16384x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_10 : Ref sig .tc := ⟨.hbm, 82, rfl⟩
abbrev main_v61 : Ref sig .tc := ⟨.hbm, 83, rfl⟩
abbrev main_v62 : Ref sig .tc := ⟨.hbm, 84, rfl⟩
abbrev main_c_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_17 : Ref sig .tc := ⟨.hbm, 115, rfl⟩
abbrev main_v87 : Ref sig .tc := ⟨.hbm, 116, rfl⟩
abbrev main_v88 : Ref sig .tc := ⟨.hbm, 117, rfl⟩
abbrev main_c_18 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_19 : Ref sig .tc := ⟨.hbm, 126, rfl⟩
abbrev main_v96 : Ref sig .tc := ⟨.hbm, 127, rfl⟩
abbrev main_v97 : Ref sig .tc := ⟨.hbm, 128, rfl⟩
abbrev main_c_20 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_21 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_22 : Ref sig .tc := ⟨.hbm, 145, rfl⟩
abbrev main_v112 : Ref sig .tc := ⟨.hbm, 146, rfl⟩
abbrev main_v113 : Ref sig .tc := ⟨.hbm, 147, rfl⟩
abbrev main_cst_23 : Ref sig .tc := ⟨.hbm, 148, rfl⟩
abbrev main_v114 : Ref sig .tc := ⟨.hbm, 149, rfl⟩
abbrev main_v115 : Ref sig .tc := ⟨.hbm, 150, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  shapeCasts_S16384x1_S16384 : S16384x1.ShapeCasts S16384
  bcast_S_S524288 : S_.BroadcastsInDim S524288 (![] : Fin 0 → Fin S524288.rank)
  bcast_S524288_S524288x1_0 : S524288.BroadcastsInDim S524288x1 (![0] : Fin 1 → Fin S524288x1.rank)
  bcast_S_S16384 : S_.BroadcastsInDim S16384 (![] : Fin 0 → Fin S16384.rank)
  bcast_S524288x1_S524288x512_0_1 : S524288x1.BroadcastsInDim S524288x512 (![0, 1] : Fin 2 → Fin S524288x512.rank)
  bcast_S_S16384x512 : S_.BroadcastsInDim S16384x512 (![] : Fin 0 → Fin S16384x512.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  transposes_S16384x256_S256x16384_1_0 : S16384x256.Transposes [1, 0] S256x16384
  bcast_S_S16384x16384 : S_.BroadcastsInDim S16384x16384 (![] : Fin 0 → Fin S16384x16384.rank)
  dot_S16384x512_S512x512_S16384x512_1_0_0_1_n_n_wf : DotDims.WF S16384x512 S512x512 S16384x512 [1] [0] [0] [1] [] []
  dot_S16384x512_S512x1_S16384x1_1_0_0_1_n_n_wf : DotDims.WF S16384x512 S512x1 S16384x1 [1] [0] [0] [1] [] []
  gather_S16384_S524288x1_S524288_n_0_n_n_0_1_1_wf : GatherDims.WF S16384 S524288x1 S524288 [] [0] [] [0] [] 1 ![1]
  scatter_S16384_S524288x1_S524288_n_0_0_1_wf : ScatterDims.WF S16384 S524288x1 S524288 [] [0] [0] 1
  gather_S16384x512_S524288x1_S524288x512_1_0_n_n_0_1_1512_wf : GatherDims.WF S16384x512 S524288x1 S524288x512 [1] [0] [] [0] [] 1 ![1, 512]
  scatter_S16384x512_S524288x1_S524288x512_1_0_0_1_wf : ScatterDims.WF S16384x512 S524288x1 S524288x512 [1] [0] [0] 1
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x16384_S16384x16384_1_0_0_1_n_n_wf : DotDims.WF S16384x256 S256x16384 S16384x16384 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384x512_S524288x1_S524288x512_1_0_n_n_0_1_1512 : GatherDims S16384x512 S524288x1 S524288x512 where
  offsetDims := [1]
  collapsedSliceDims := [0]
  operandBatchingDims := []
  startIndicesBatchingDims := []
  startIndexMap := [0]
  indexVectorDim := 1
  sliceSizes := ![1, 512]
  wf := gather_S16384x512_S524288x1_S524288x512_1_0_n_n_0_1_1512_wf
def scatter_S16384x512_S524288x1_S524288x512_1_0_0_1 : ScatterDims S16384x512 S524288x1 S524288x512 where
  updateWindowDims := [1]
  insertedWindowDims := [0]
  scatterDimsToOperandDims := [0]
  indexVectorDim := 1
  wf := scatter_S16384x512_S524288x1_S524288x512_1_0_0_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf

class Facts : Prop extends Facts₀ where

variable [Facts]
-- ==== Proof.KData.lean ====
/-
  The proof data of the three kernel regions, each at a parameter `V`: the buffer contents the region is entered from.
  Region 0 and region 1 are one-step matrix products (the contraction axis is a single block): at every grid point the
  accumulator is set to zero, the product of the row block of the left operand with the whole right operand is added to
  it, and the sum is stored to the output block. Region 2 multiplies a row block of its one operand with another row block
  of the same operand, contracting the feature axis of both, and applies the logistic function.
  What each output block holds after the body is the kernel's stored payload of the input blocks.
-/
import proofs.«140601_j33998961115547_1_alg».proof.Proof.Gen.Kernel.Launch
import proofs.«140601_j33998961115547_1_alg».proof.Proof.Gen.Kernel.Skeleton
import proofs.«140601_j33998961115547_1_alg».proof.Proof.Gen.Kernel.Points
import Idealize.ShloMosaic.Lib.Pipeline.FrameBody
import Idealize.ShloMosaic.Lib.Pipeline.Frame
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.Sem
open Idealize.ShloMosaic.Pipeline (Dat Cfg Window)
open Cert.Kernel Cert.Kernel.Gen

variable {F : FTy → Type} [FloatOps F]

variable (V : (c : Dev nD) → (b : Ref sig .tc) → Buf (Elt F) ((c : Thread nD τ).loc b))

/-! ## Region 0: the first projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block: zero plus the product of the two input blocks. -/
def out0_2 (x0 : Vec F S512x512 .f32) (x1 : Vec F S512x512 .f32) : Vec F S512x512 .f32 :=
  k0_pay2 x0 x1 (k0_pay1 (F := F))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the second projection -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S512x512 .f32) (x1 : Vec F S512x256 .f32) : Vec F S512x256 .f32 :=
  k1_pay2 x0 x1 (k1_pay1 (F := F))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: the decoder -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S1024x256 .f32) (x1 : Vec F S1024x256 .f32) : Vec F S1024x1024 .f32 :=
  k2_pay1 x0 x1

/-- The two input windows read one array: each holds a half share of it; the output window holds its array whole. -/
def q2 : Fin cfg2.W → PosShare TreeShare
  | ⟨0, _⟩ => fullShare.left
  | ⟨1, _⟩ => fullShare.right
  | ⟨2, _⟩ => fullShare

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q2
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## The buffer contents between the items of the program

The program is: four host operations (the row and column index vectors), region 0, the first attention layer as host
operations, region 1, the second attention layer as host operations, region 2. `UJ m c` is what core `c`'s buffers
hold after item `J - 1`; a region changes only its output array. -/

section Chain
variable (m : (ℓ : Loc nD τ sig) → Buf (Elt F) ℓ)

abbrev U0 (c : Dev nD) : Valuation τ sig (Elt F) := fun b => m (c, b)
abbrev U1 (c : Dev nD) : Valuation τ sig (Elt F) := StableHlo.after hostOps0 (U0 m c)
abbrev T1 : (c : Dev nD) → (b : Ref sig .tc) → Buf (Elt F) ((c : Thread nD τ).loc b) := fun c b => U1 m c b
/-- What region 0 leaves in its output array. -/
def o2 (c : Dev nD) : Buf (Elt F) ((c : Thread nD τ).loc main_v4) := (dat0 (T1 m) c).arrAt 2 cfg0.N
abbrev U2 (c : Dev nD) : Valuation τ sig (Elt F) := Function.update (U1 m c) main_v4 (o2 m c)
abbrev U3 (c : Dev nD) : Valuation τ sig (Elt F) := StableHlo.after hostOps1 (U2 m c)
abbrev T3 : (c : Dev nD) → (b : Ref sig .tc) → Buf (Elt F) ((c : Thread nD τ).loc b) := fun c b => U3 m c b
/-- What region 1 leaves in its output array. -/
def o4 (c : Dev nD) : Buf (Elt F) ((c : Thread nD τ).loc main_v56) := (dat1 (T3 m) c).arrAt 2 cfg1.N
abbrev U4 (c : Dev nD) : Valuation τ sig (Elt F) := Function.update (U3 m c) main_v56 (o4 m c)
abbrev U5 (c : Dev nD) : Valuation τ sig (Elt F) := StableHlo.after hostOps2 (U4 m c)
abbrev T5 : (c : Dev nD) → (b : Ref sig .tc) → Buf (Elt F) ((c : Thread nD τ).loc b) := fun c b => U5 m c b
/-- What region 2 leaves in its output array. -/
def o6 (c : Dev nD) : Buf (Elt F) ((c : Thread nD τ).loc main_v108) := (dat2 (T5 m) c).arrAt 2 cfg2.N
abbrev U6 (c : Dev nD) : Valuation τ sig (Elt F) := Function.update (U5 m c) main_v108 (o6 m c)

end Chain

end Cert.Kernel.Hand

end
-- ==== Proof.LibWholeStore.lean ====
/-
  A buffer stored whole, then loaded whole.

  `WholeStore.readCov_cons`: after a list of stores whose LAST one writes the whole buffer through the unit-stride
  rectangle at offset zero, a load through that rectangle reads the last store's payload, whatever the earlier stores
  were. `WholeStore.readAt_whole`: a load of the whole buffer through that rectangle reads the buffer's contents.
-/
import Idealize.ShloMosaic.Lib.Pipeline.Value

noncomputable section

namespace Idealize.ShloMosaic.WholeStore

open Idealize.ShloMosaic View

variable {Val : EltTy → Type} {S : Shape} {e : EltTy}

/-- A whole-buffer load after stores the last of which wrote the whole buffer reads that store's payload. -/
theorem readCov_cons [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [View.readCov_eq_canon']
  funext j
  rw [View.canon_cons_unit_zero rfl]
  show w ((Rect.whole S).emb j) = w j
  rw [Rect.emb_whole_apply]

/-- A whole-buffer load reads the buffer's contents. -/
theorem readAt_whole {sig : RefSig} {κ : Kind} {sp : Space}
    (v : View sig κ sp S e) {off : Fin S.rank → Nat} (h : off = fun _ => 0)
    (inb : ∀ a, off a + S.size a ≤ S.size a) (f : v.ty.Contents Val) :
    v.readAt Val (Rect.unit off S.size inb).toLoadRect f = v.read Val f := by
  rw [View.readAt_eq_ld, View.ld_unit_zero h]

end Idealize.ShloMosaic.WholeStore

end
-- ==== Proof.KBody0.lean ====
/-
  Region 0's body. At every grid point both conditions of the kernel hold (the contraction axis has one block), so the
  body sets the accumulator to zero, adds the product of the two input blocks, and stores the accumulator to the
  output block: the output block ends at zero plus the product, the accumulator at some contents.
-/
import proofs.«140601_j33998961115547_1_alg».proof.Proof.KData
import Idealize.ShloMosaic.Lib.Pipeline.RegionsLoop
import Idealize.ShloMosaic.Lib.Pipeline.FrameSuffix
import Idealize.ShloMosaic.Lib.Ring
import Idealize.ShloMosaic.Lib.Tactic
import proofs.«140601_j33998961115547_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first condition: the position on the contraction axis is 0. -/
abbrev cond0_0 (i : grid0.Coords) : Prop := (Scalar.cmpi .ne (Scalar.extui (Scalar.cmpi .eq (BitVec.ofNat 32 (i 2).val) 0#32)) 0#32) = 1#1
/-- The second condition: the position on the contraction axis is the last one. -/
abbrev cond0_1 (i : grid0.Coords) : Prop := k0_cond2 i = 1#1

theorem hcond0_0 : ∀ t : Fin cfg0.N, cond0_0 (grid0.coords t) :=
  (by decide +kernel : ∀ t : Fin grid0.N, cond0_0 (grid0.coords t))
theorem hcond0_1 : ∀ t : Fin cfg0.N, cond0_1 (grid0.coords t) :=
  (by decide +kernel : ∀ t : Fin grid0.N, cond0_1 (grid0.coords t))

set_option maxHeartbeats 1000000 in
theorem sound_kernel0 (c : Dev nD) (E : Set ℕ) (i : grid0.Coords) (hc0 : cond0_0 i) (hc1 : cond0_1 i)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .f32) (harg6 : arg6.IsWhole)
    (x0 : Vec F S512x512 .f32) (x1 : Vec F S512x512 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out0_2 x0 x1) ∗ (∃ d, owns (c : Thread nD τ) arg6 fullShare d)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    have hz : (![0, 0] : Fin 2 → Nat) = fun _ => 0 := funext fun a => by fin_cases a <;> rfl
    rw [View.read_writes_eq_canon _ _ _ (View.cover_of_tiled _ S512x512.size (by rfl)), View.canon_unit_zero hz,
      WholeStore.readCov_cons _ hz, WholeStore.readCov_cons _ hz, WholeStore.readAt_whole _ hz, WholeStore.readAt_whole _ hz]
    rfl
  iexists _, _; isplitr
  swap; · iexact H3
  ipureintro; rfl

/-! ## The body obligation of region 0 -/

section Obligation
variable (V : (c : Dev nD) → (b : Ref sig .tc) → Buf (Elt F) ((c : Thread nD τ).loc b))

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point: both conditions hold there; the accumulator is taken out of the region's invariant at some
    contents and put back at some contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl, after0_0, after0_1, after0_2]
  unfold Pipeline.ΦA; rw [scopedRest0_eq]
  iintro ⟨⟨⟨⟨%fs, HS⟩, Hrest⟩, Hg⟩, Ho, ⟨%d0, H0⟩, ⟨%d1, H1⟩, ⟨%d2, H2⟩⟩
  iapply (sound_kernel0 c Set.univ (grid0.coords t) (hcond0_0 t) (hcond0_1 t) _ _ _ _ _ _ _ _ (iblk0 V c 0 t) (iblk0 V c 1 t) _)
  isplitl [H0]; · iexact H0
  isplitl [H1]; · iexact H1
  isplitl [H2]; · iexists _; iexact H2
  isplitl [HS]
  · iexists fs; rw [owns_whole]; iexact HS
  iintro ⟨H0, H1, H2, ⟨%d3, HS⟩⟩
  isplitl [HS Hrest Hg]
  · isplitl [HS Hrest]
    · isplitl [HS]
      · iexists d3; rw [← owns_whole (c : Thread nD τ) cc0_scratch0 fullShare d3]; iexact HS
      iexact Hrest
    iexact Hg
  isplitl [Ho]; · iexact Ho
  isplitl [H0]; · iexact H0
  isplitl [H1]; · iexact H1
  iexact H2

theorem liveAt0_2 : ∀ t : Fin cfg0.N, idle0 2 (grid0.coords t) = false :=
  (by decide +kernel : ∀ t : Fin grid0.N, idle0 2 (grid0.coords t) = false)

theorem body_obligation0 (c : Dev nD) : BodyObligation (dat0 (F := F) V c) (defs₀ (F := F)) Variants.none () Set.univ := fun t => by
  rw [bigSep_W0, bigSep_W0]
  simp only [liveAt0_2 t]
  exact sound_body0 V c t

end Obligation

end Cert.Kernel.Hand

end
-- ==== Proof.KBody1.lean ====
/-
  Region 1's body: the same one-step matrix product as region 0, at the second layer's shapes.
-/
import proofs.«140601_j33998961115547_1_alg».proof.Proof.KData
import Idealize.ShloMosaic.Lib.Pipeline.RegionsLoop
import Idealize.ShloMosaic.Lib.Pipeline.FrameSuffix
import Idealize.ShloMosaic.Lib.Ring
import Idealize.ShloMosaic.Lib.Tactic
import proofs.«140601_j33998961115547_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

theorem hcond1_0 : ∀ t : Fin cfg1.N, cond1_0 (grid1.coords t) :=
  (by decide +kernel : ∀ t : Fin grid1.N, cond1_0 (grid1.coords t))
theorem hcond1_1 : ∀ t : Fin cfg1.N, cond1_1 (grid1.coords t) :=
  (by decide +kernel : ∀ t : Fin grid1.N, cond1_1 (grid1.coords t))

set_option maxHeartbeats 1000000 in
theorem sound_kernel1 (c : Dev nD) (E : Set ℕ) (i : grid1.Coords) (hc0 : cond1_0 i) (hc1 : cond1_1 i)
    (arg3 : Memref sig .tc .vmem S512x512 .f32) (harg3 : arg3.IsWhole) (arg4 : Memref sig .tc .vmem S512x256 .f32) (harg4 : arg4.IsWhole)
    (arg5 : Memref sig .tc .vmem S512x256 .f32) (harg5 : arg5.IsWhole) (arg6 : Memref sig .tc .vmem S512x256 .f32) (harg6 : arg6.IsWhole)
    (x0 : Vec F S512x512 .f32) (x1 : Vec F S512x256 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out1_2 x0 x1) ∗ (∃ d, owns (c : Thread nD τ) arg6 fullShare d)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    have hz : (![0, 0] : Fin 2 → Nat) = fun _ => 0 := funext fun a => by fin_cases a <;> rfl
    rw [View.read_writes_eq_canon _ _ _ (View.cover_of_tiled _ S512x256.size (by rfl)), View.canon_unit_zero hz,
      WholeStore.readCov_cons _ hz, WholeStore.readCov_cons _ hz, WholeStore.readAt_whole _ hz, WholeStore.readAt_whole _ hz]
    rfl
  iexists _, _; isplitr
  swap; · iexact H3
  ipureintro; rfl

/-! ## The body obligation of region 1 -/

section Obligation
variable (V : (c : Dev nD) → (b : Ref sig .tc) → Buf (Elt F) ((c : Thread nD τ).loc b))

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: both conditions hold there; the accumulator is taken out of the region's invariant at some
    contents and put back at some contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl, after1_0, after1_1, after1_2]
  unfold Pipeline.ΦA; rw [scopedRest1_eq]
  iintro ⟨⟨⟨Ha, Hb, Hc, Hd, He, Hf, ⟨%fs, HS⟩, Hrest⟩, Hg⟩, Ho, ⟨%d0, H0⟩, ⟨%d1, H1⟩, ⟨%d2, H2⟩⟩
  iapply (sound_kernel1 c Set.univ (grid1.coords t) (hcond1_0 t) (hcond1_1 t) _ _ _ _ _ _ _ _ (iblk1 V c 0 t) (iblk1 V c 1 t) _)
  isplitl [H0]; · iexact H0
  isplitl [H1]; · iexact H1
  isplitl [H2]; · iexists _; iexact H2
  isplitl [HS]
  · iexists fs; rw [owns_whole]; iexact HS
  iintro ⟨H0, H1, H2, ⟨%d3, HS⟩⟩
  isplitl [HS Ha Hb Hc Hd He Hf Hrest Hg]
  · isplitl [HS Ha Hb Hc Hd He Hf Hrest]
    · isplitl [Ha]; · iexact Ha
      isplitl [Hb]; · iexact Hb
      isplitl [Hc]; · iexact Hc
      isplitl [Hd]; · iexact Hd
      isplitl [He]; · iexact He
      isplitl [Hf]; · iexact Hf
      isplitl [HS]
      · iexists d3; rw [← owns_whole (c : Thread nD τ) cc1_scratch0 fullShare d3]; iexact HS
      iexact Hrest
    iexact Hg
  isplitl [Ho]; · iexact Ho
  isplitl [H0]; · iexact H0
  isplitl [H1]; · iexact H1
  iexact H2

theorem liveAt1_2 : ∀ t : Fin cfg1.N, idle1 2 (grid1.coords t) = false :=
  (by decide +kernel : ∀ t : Fin grid1.N, idle1 2 (grid1.coords t) = false)

theorem body_obligation1 (c : Dev nD) : BodyObligation (dat1 (F := F) V c) (defs₀ (F := F)) Variants.none () Set.univ := fun t => by
  rw [bigSep_W1, bigSep_W1]
  simp only [liveAt1_2 t]
  exact sound_body1 V c t

end Obligation

end Cert.Kernel.Hand

end
-- ==== Proof.KBody2.lean ====
/-
  Region 2's body: two row blocks of the one operand are loaded, multiplied contracting the feature axis of both, the
  logistic function is applied and the result is stored to the whole output block.
-/
import proofs.«140601_j33998961115547_1_alg».proof.Proof.KData
import Idealize.ShloMosaic.Lib.Pipeline.RegionsLoop
import Idealize.ShloMosaic.Lib.Pipeline.FrameSuffix
import Idealize.ShloMosaic.Lib.Ring
import Idealize.ShloMosaic.Lib.Tactic
import proofs.«140601_j33998961115547_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem sound_kernel2 (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole)
    (x0 : Vec F S1024x256 .f32) (x1 : Vec F S1024x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  have hz : (![0, 0] : Fin 2 → Nat) = fun _ => 0 := funext fun a => by fin_cases a <;> rfl
  rw [View.read_writes_eq_canon _ _ _ (View.cover_of_tiled _ S1024x1024.size (by rfl)), View.canon_unit_zero hz,
    WholeStore.readAt_whole _ hz, WholeStore.readAt_whole _ hz]
  rfl

/-! ## The body obligation of region 2 -/

section Obligation
variable (V : (c : Dev nD) → (b : Ref sig .tc) → Buf (Elt F) ((c : Thread nD τ).loc b))

/-- An input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 1000000 in
/-- The body at any point; the region's invariant passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl, after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Obligation

end Cert.Kernel.Hand

end
-- ==== Proof.KShare2.lean ====
/-
  Region 2's two input windows read ONE array. The buffers behind the windows' arrays are then two: the shared input
  array and the output array, each held whole at the full share. The full share of the input array splits into its
  left and right halves, one for each input window; the output window holds its array at the full share. Input arrays
  are never written back, so after the last point both halves still hold the entry contents and join back into the
  full share.
-/
import proofs.«140601_j33998961115547_1_alg».proof.Proof.KData
import Idealize.ShloMosaic.Lib.Pipeline.Launch
import Idealize.ShloMosaic.Lib.Pipeline.Regions
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three windows' arrays, at contents G: the input array at its left half for window 0 and at its right half for
    window 1, the output array at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v107) ↦{fullShare.left} G 0) ∗ (((c : Thread nD τ).loc main_v107) ↦{fullShare.right} G 1)
          ∗ (((c : Thread nD τ).loc main_v108) ↦{fullShare} G 2)) := by
  unfold Dat.arrays
  rw [bigSep_W2]
  have hs0 : (cfg2.win 0).arr.view.set = Finset.univ := (arr_whole2 0).set_eq_univ
  have hs2 : (cfg2.win 2).arr.view.set = Finset.univ := (arr_whole2 2).set_eq_univ
  rw [hs0, hs2]
  rfl

/-- The distinct buffers behind the three windows' arrays are the input array and the output array. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_v107) ↦{fullShare} V' main_v107) ∗ (((c : Thread nD τ).loc main_v108) ↦{fullShare} V' main_v108)) := by
  unfold Pipeline.arrBufs
  rw [show Finset.univ.image (Pipeline.arrRef spec2) = {main_v107, main_v108} by decide,
    bigSep_insert (by decide), bigSep_singleton]
  rfl

/-- At region entry: the full share of the input array splits into the two input windows' halves. -/
theorem split2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrays2_eq, arrBufs2_eq]
  show iprop((((c : Thread nD τ).loc main_v107) ↦{fullShare} V c main_v107) ∗ (((c : Thread nD τ).loc main_v108) ↦{fullShare} V c main_v108))
    ⊢ iprop((((c : Thread nD τ).loc main_v107) ↦{fullShare.left} V c main_v107) ∗ (((c : Thread nD τ).loc main_v107) ↦{fullShare.right} V c main_v107)
        ∗ (((c : Thread nD τ).loc main_v108) ↦{fullShare} V c main_v108))
  iintro ⟨H1, H2⟩
  ihave H := (pointsTo_share (PosShare.mem_left_op_right fullShare)).1 $$ H1
  icases H with ⟨Ha, Hb⟩
  isplitl [Ha]; · iexact Ha
  isplitl [Hb]; · iexact Hb
  iexact H2

/-- After the last point: the two halves, still at the entry contents, join back into the full share. -/
theorem join2 (c : Dev nD) (V' : (b : Ref sig .tc) → Buf (Elt F) ((c : Thread nD τ).loc b))
    (h107 : V' main_v107 = V c main_v107) (h108 : V' main_v108 = (dat2 V c).arrAt 2 cfg2.N) :
    (dat2 V c).arrays ((dat2 V c).arrAt · cfg2.N)
      ⊢ (Pipeline.arrBufs (Ix := Unit) (Name := ℕ) (U := UR sig nD τ) (Lvl := ℕ) spec2 c V' : sProp 𝕄) := by
  rw [arrays2_eq, arrBufs2_eq, h107, h108, (dat2 V c).arrAt_in 0 rfl cfg2.N, (dat2 V c).arrAt_in 1 rfl cfg2.N]
  show iprop((((c : Thread nD τ).loc main_v107) ↦{fullShare.left} V c main_v107) ∗ (((c : Thread nD τ).loc main_v107) ↦{fullShare.right} V c main_v107)
        ∗ (((c : Thread nD τ).loc main_v108) ↦{fullShare} (dat2 V c).arrAt 2 cfg2.N))
    ⊢ iprop((((c : Thread nD τ).loc main_v107) ↦{fullShare} V c main_v107) ∗ (((c : Thread nD τ).loc main_v108) ↦{fullShare} (dat2 V c).arrAt 2 cfg2.N))
  iintro ⟨Ha, Hb, Hc⟩
  isplitl [Ha Hb]
  · iapply (pointsTo_share (PosShare.mem_left_op_right fullShare)).2
    isplitl [Ha]; · iexact Ha
    iexact Hb
  iexact Hc

end Cert.Kernel.Hand

end
-- ==== Proof.KRun.lean ====
/-
  The run of the whole program: the three kernel regions among the stretches of host operations, each region entered
  from what the item before it left. Between two items a core holds every unscoped buffer at the contents `UJ m c`
  (the launch memory, then each host stretch applied, then each region's output array at what its write-backs leave),
  the generator register at some state, and owes nothing. The run ends with the result array at what region 2 leaves
  and every argument array as launched.
-/
import proofs.«140601_j33998961115547_1_alg».proof.Proof.KBody0
import proofs.«140601_j33998961115547_1_alg».proof.Proof.KBody1
import proofs.«140601_j33998961115547_1_alg».proof.Proof.KBody2
import proofs.«140601_j33998961115547_1_alg».proof.Proof.KShare2
import proofs.«140601_j33998961115547_1_alg».proof.Proof.Gen.Kernel.Regions
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev T2 : (c : Dev nD) → (b : Ref sig .tc) → Buf (Elt F) ((c : Thread nD τ).loc b) := fun c b => U2 m c b
abbrev T4 : (c : Dev nD) → (b : Ref sig .tc) → Buf (Elt F) ((c : Thread nD τ).loc b) := fun c b => U4 m c b
abbrev T6 : (c : Dev nD) → (b : Ref sig .tc) → Buf (Elt F) ((c : Thread nD τ).loc b) := fun c b => U6 m c b

/-! ## What a region changes: its output array only -/

theorem U2_out (c : Dev nD) : U2 m c main_v4 = o2 m c := Function.update_self _ _ _
theorem U2_of_ne (c : Dev nD) (b : Ref sig .tc) (h : b ≠ main_v4) : U2 m c b = U1 m c b :=
  Function.update_of_ne (StableHlo.devRef_ne_of_ne h) _ _
theorem U4_out (c : Dev nD) : U4 m c main_v56 = o4 m c := Function.update_self _ _ _
theorem U4_of_ne (c : Dev nD) (b : Ref sig .tc) (h : b ≠ main_v56) : U4 m c b = U3 m c b :=
  Function.update_of_ne (StableHlo.devRef_ne_of_ne h) _ _
theorem U6_out (c : Dev nD) : U6 m c main_v108 = o6 m c := Function.update_self _ _ _
theorem U6_of_ne (c : Dev nD) (b : Ref sig .tc) (h : b ≠ main_v108) : U6 m c b = U5 m c b :=
  Function.update_of_ne (StableHlo.devRef_ne_of_ne h) _ _

theorem hF0 (c : Dev nD) (w : Fin cfg0.W) : (dat0 (T1 m) c).arrAt w cfg0.N = T2 m c (Pipeline.arrRef spec0 w) :=
  match w with
  | ⟨0, _⟩ => ((dat0 (T1 m) c).arrAt_in 0 rfl _).trans ((A_eq0 (T1 m) c 0).trans (U2_of_ne m c main_arg0 (by decide)).symm)
  | ⟨1, _⟩ => ((dat0 (T1 m) c).arrAt_in 1 rfl _).trans ((A_eq0 (T1 m) c 1).trans (U2_of_ne m c main_arg1 (by decide)).symm)
  | ⟨2, _⟩ => (U2_out m c).symm
theorem hrest0 (c : Dev nD) : ∀ b, b ∉ Finset.univ.image (Pipeline.arrRef spec0) → T2 m c b = T1 m c b :=
  fun b hb => U2_of_ne m c b fun e => hb (Finset.mem_image.mpr ⟨2, Finset.mem_univ _, e.symm⟩)

theorem hF1 (c : Dev nD) (w : Fin cfg1.W) : (dat1 (T3 m) c).arrAt w cfg1.N = T4 m c (Pipeline.arrRef spec1 w) :=
  match w with
  | ⟨0, _⟩ => ((dat1 (T3 m) c).arrAt_in 0 rfl _).trans ((A_eq1 (T3 m) c 0).trans (U4_of_ne m c main_v55 (by decide)).symm)
  | ⟨1, _⟩ => ((dat1 (T3 m) c).arrAt_in 1 rfl _).trans ((A_eq1 (T3 m) c 1).trans (U4_of_ne m c main_arg2 (by decide)).symm)
  | ⟨2, _⟩ => (U4_out m c).symm
theorem hrest1 (c : Dev nD) : ∀ b, b ∉ Finset.univ.image (Pipeline.arrRef spec1) → T4 m c b = T3 m c b :=
  fun b hb => U4_of_ne m c b fun e => hb (Finset.mem_image.mpr ⟨2, Finset.mem_univ _, e.symm⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U6 m c) ∗ ∃ r, prngReg c r)

/-! ## The regions as segments -/

set_option backward.isDefEq.respectTransparency.types false in
/-- Region 0 over the thread state: entered from every unscoped buffer at the contents before it, left with its
    output array at what the write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    output array at what the write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state. Its two input windows read one array: the array's buffer is split into two half
    shares on entry and joined again on exit; the output array ends at what the write-backs leave. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit : (StableHlo.held (c : Thread nD τ) (Pipeline.ucRefs τ sig) (U5 m c) : sProp 𝕄)
        ⊢ iprop((pdats m 2 c).arrays ((pdats m 2 c).arrAt · 0)
            ∗ Pipeline.unscopedRest (Ix := Unit) (Name := ℕ) (U := UR sig nD τ) (Lvl := ℕ) spec2 c (T5 m c)) := by
      rw [← Pipeline.unscopedBufs_held, Pipeline.unscopedBufs_split₀ cfgs 2 winFacts₀2.arr_unscoped c (T5 m c)]
      exact sep_mono (split2 (T5 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
            ∗ Pipeline.unscopedRest (Ix := Unit) (Name := ℕ) (U := UR sig nD τ) (Lvl := ℕ) spec2 c (T5 m c))
        ⊢ (StableHlo.held (c : Thread nD τ) (Pipeline.ucRefs τ sig) (U6 m c) : sProp 𝕄) := by
      rw [← Pipeline.unscopedBufs_held, Pipeline.unscopedBufs_split₀ cfgs 2 winFacts₀2.arr_unscoped c (T6 m c)]
      refine sep_mono (join2 (T5 m) c (T6 m c) (U6_of_ne m c main_v107 (by decide)) (U6_out m c)) (Entails.of_eq ?_)
      unfold Pipeline.unscopedRest
      exact bigSep_congr fun b hb => by
        rw [show T6 m c b = T5 m c b from U6_of_ne m c b fun e => (Finset.mem_sdiff.mp hb).2 (Finset.mem_image.mpr ⟨2, Finset.mem_univ _, e.symm⟩)]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m),
    .host (hseg hostOps2 hostOps2_sub hostOps2_fresh (U4 m)),
    .region (reg2 m) ]

theorem main_run (c : Dev nD) : main (F := F) c = Pipeline.Seg.run (segs m) := (main_chain c).trans (by chain_rfl)

/-- No host operation writes an argument array, and no region changes one. -/
theorem U6_arg (c : Dev nD) (b : Ref sig .tc) (h6 : b ≠ main_v108) (h4 : b ≠ main_v56) (h2 : b ≠ main_v4)
    (w2 : b ∉ hostOps2_W) (w1 : b ∉ hostOps1_W) (w0 : b ∉ hostOps0_W) : U6 m c b = m ((c : Thread nD τ).loc b) :=
  (U6_of_ne m c b h6).trans <| (StableHlo.after_of_writes_sub hostOps2 _ hostOps2_writes w2).trans <|
    (U4_of_ne m c b h4).trans <| (StableHlo.after_of_writes_sub hostOps1 _ hostOps1_writes w1).trans <|
    (U2_of_ne m c b h2).trans <| (StableHlo.after_of_writes_sub hostOps0 _ hostOps0_writes w0).trans rfl

variable (ρ : Dev nD → PrngReg)

set_option backward.isDefEq.respectTransparency.types false in
/-- THE RUN. From any memory with zero counters every weakly fair execution of the program terminates, nothing faulting,
    with the result array at what region 2 leaves and every argument array as launched. -/
theorem run_main : θ_run defs (onTc (τ := τ) (main (F := F))) ⟨m, fun _ => 0, ρ⟩ (fun r => ∀ c : Dev nD,
      r.2.mem ((c.tc : Thread nD τ).loc main_v108) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c =>
      ⟨(h c _ (mem_uc main_v108 (by decide))).trans (U6_out m c),
       (h c _ (mem_uc main_arg0 (by decide))).trans (U6_arg m c main_arg0 (by decide) (by decide) (by decide) (by decide) (by decide) (by decide)),
       (h c _ (mem_uc main_arg1 (by decide))).trans (U6_arg m c main_arg1 (by decide) (by decide) (by decide) (by decide) (by decide) (by decide)),
       (h c _ (mem_uc main_arg2 (by decide))).trans (U6_arg m c main_arg2 (by decide) (by decide) (by decide) (by decide) (by decide) (by decide)),
       (h c _ (mem_uc main_arg3 (by decide))).trans (U6_arg m c main_arg3 (by decide) (by decide) (by decide) (by decide) (by decide) (by decide)),
       (h c _ (mem_uc main_arg4 (by decide))).trans (U6_arg m c main_arg4 (by decide) (by decide) (by decide) (by decide) (by decide) (by decide)),
       (h c _ (mem_uc main_arg5 (by decide))).trans (U6_arg m c main_arg5 (by decide) (by decide) (by decide) (by decide) (by decide) (by decide)),
       (h c _ (mem_uc main_arg6 (by decide))).trans (U6_arg m c main_arg6 (by decide) (by decide) (by decide) (by decide) (by decide) (by decide)),
       (h c _ (mem_uc main_arg7 (by decide))).trans (U6_arg m c main_arg7 (by decide) (by decide) (by decide) (by decide) (by decide) (by decide)),
       (h c _ (mem_uc main_arg8 (by decide))).trans (U6_arg m c main_arg8 (by decide) (by decide) (by decide) (by decide) (by decide) (by decide))⟩)

end Cert.Kernel.Hand

end
-- ==== Proof.KIData.lean ====
/-
  The proof data of the three kernel regions, each at a parameter `V`: the buffer contents the region is entered from.
  Region 0 and region 1 are one-step matrix products (the contraction axis is a single block): at every grid point the
  accumulator is set to zero, the product of the row block of the left operand with the whole right operand is added to
  it, and the sum is stored to the output block. Region 2 multiplies a row block of its one operand with another row block
  of the same operand, contracting the feature axis of both, and applies the logistic function.
  What each output block holds after the body is the kernel's stored payload of the input blocks.
-/
import proofs.«140601_j33998961115547_1_alg».proof.Proof.Gen.KernelIdeal.Launch
import proofs.«140601_j33998961115547_1_alg».proof.Proof.Gen.KernelIdeal.Skeleton
import proofs.«140601_j33998961115547_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-! ## Region 0: the first projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block: zero plus the product of the two input blocks. -/
def out0_2 (x0 : Vec F S512x512 .f32) (x1 : Vec F S512x512 .f32) : Vec F S512x512 .f32 :=
  k0_pay2 x0 x1 (k0_pay1 (F := F))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the second projection -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S512x512 .f32) (x1 : Vec F S512x256 .f32) : Vec F S512x256 .f32 :=
  k1_pay2 x0 x1 (k1_pay1 (F := F))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: the decoder -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S1024x256 .f32) (x1 : Vec F S1024x256 .f32) : Vec F S1024x1024 .f32 :=
  k2_pay1 x0 x1

/-- The two input windows read one array: each holds a half share of it; the output window holds its array whole. -/
def q2 : Fin cfg2.W → PosShare TreeShare
  | ⟨0, _⟩ => fullShare.left
  | ⟨1, _⟩ => fullShare.right
  | ⟨2, _⟩ => fullShare

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q2
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## The buffer contents between the items of the program

The program is: four host operations (the row and column index vectors), region 0, the first attention layer as host
operations, region 1, the second attention layer as host operations, region 2. `UJ m c` is what core `c`'s buffers
hold after item `J - 1`; a region changes only its output array. -/

section Chain
variable (m : (ℓ : Loc nD τ sig) → Buf (Elt F) ℓ)

abbrev U0 (c : Dev nD) : Valuation τ sig (Elt F) := fun b => m (c, b)
abbrev U1 (c : Dev nD) : Valuation τ sig (Elt F) := StableHlo.after hostOps0 (U0 m c)
abbrev T1 : (c : Dev nD) → (b : Ref sig .tc) → Buf (Elt F) ((c : Thread nD τ).loc b) := fun c b => U1 m c b
/-- What region 0 leaves in its output array. -/
def o2 (c : Dev nD) : Buf (Elt F) ((c : Thread nD τ).loc main_v4) := (dat0 (T1 m) c).arrAt 2 cfg0.N
abbrev U2 (c : Dev nD) : Valuation τ sig (Elt F) := Function.update (U1 m c) main_v4 (o2 m c)
abbrev U3 (c : Dev nD) : Valuation τ sig (Elt F) := StableHlo.after hostOps1 (U2 m c)
abbrev T3 : (c : Dev nD) → (b : Ref sig .tc) → Buf (Elt F) ((c : Thread nD τ).loc b) := fun c b => U3 m c b
/-- What region 1 leaves in its output array. -/
def o4 (c : Dev nD) : Buf (Elt F) ((c : Thread nD τ).loc main_v56) := (dat1 (T3 m) c).arrAt 2 cfg1.N
abbrev U4 (c : Dev nD) : Valuation τ sig (Elt F) := Function.update (U3 m c) main_v56 (o4 m c)
abbrev U5 (c : Dev nD) : Valuation τ sig (Elt F) := StableHlo.after hostOps2 (U4 m c)
abbrev T5 : (c : Dev nD) → (b : Ref sig .tc) → Buf (Elt F) ((c : Thread nD τ).loc b) := fun c b => U5 m c b
/-- What region 2 leaves in its output array. -/
def o6 (c : Dev nD) : Buf (Elt F) ((c : Thread nD τ).loc main_v108) := (dat2 (T5 m) c).arrAt 2 cfg2.N
abbrev U6 (c : Dev nD) : Valuation τ sig (Elt F) := Function.update (U5 m c) main_v108 (o6 m c)

end Chain

end Cert.KernelIdeal.Hand

end
-- ==== Proof.KIBody0.lean ====
/-
  Region 0's body. At every grid point both conditions of the kernel hold (the contraction axis has one block), so the
  body sets the accumulator to zero, adds the product of the two input blocks, and stores the accumulator to the
  output block: the output block ends at zero plus the product, the accumulator at some contents.
-/
import proofs.«140601_j33998961115547_1_alg».proof.Proof.KIData
import Idealize.ShloMosaic.Lib.Pipeline.RegionsLoop
import Idealize.ShloMosaic.Lib.Pipeline.FrameSuffix
import Idealize.ShloMosaic.Lib.Ring
import Idealize.ShloMosaic.Lib.Tactic
import proofs.«140601_j33998961115547_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first condition: the position on the contraction axis is 0. -/
abbrev cond0_0 (i : grid0.Coords) : Prop := (Scalar.cmpi .ne (Scalar.extui (Scalar.cmpi .eq (BitVec.ofNat 32 (i 2).val) 0#32)) 0#32) = 1#1
/-- The second condition: the position on the contraction axis is the last one. -/
abbrev cond0_1 (i : grid0.Coords) : Prop := k0_cond2 i = 1#1

theorem hcond0_0 : ∀ t : Fin cfg0.N, cond0_0 (grid0.coords t) :=
  (by decide +kernel : ∀ t : Fin grid0.N, cond0_0 (grid0.coords t))
theorem hcond0_1 : ∀ t : Fin cfg0.N, cond0_1 (grid0.coords t) :=
  (by decide +kernel : ∀ t : Fin grid0.N, cond0_1 (grid0.coords t))

set_option maxHeartbeats 1000000 in
theorem sound_kernel0 (c : Dev nD) (E : Set ℕ) (i : grid0.Coords) (hc0 : cond0_0 i) (hc1 : cond0_1 i)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .f32) (harg6 : arg6.IsWhole)
    (x0 : Vec F S512x512 .f32) (x1 : Vec F S512x512 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out0_2 x0 x1) ∗ (∃ d, owns (c : Thread nD τ) arg6 fullShare d)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    have hz : (![0, 0] : Fin 2 → Nat) = fun _ => 0 := funext fun a => by fin_cases a <;> rfl
    rw [View.read_writes_eq_canon _ _ _ (View.cover_of_tiled _ S512x512.size (by rfl)), View.canon_unit_zero hz,
      WholeStore.readCov_cons _ hz, WholeStore.readCov_cons _ hz, WholeStore.readAt_whole _ hz, WholeStore.readAt_whole _ hz]
    rfl
  iexists _, _; isplitr
  swap; · iexact H3
  ipureintro; rfl

/-! ## The body obligation of region 0 -/

section Obligation
variable (V : (c : Dev nD) → (b : Ref sig .tc) → Buf (Elt F) ((c : Thread nD τ).loc b))

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point: both conditions hold there; the accumulator is taken out of the region's invariant at some
    contents and put back at some contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl, after0_0, after0_1, after0_2]
  unfold Pipeline.ΦA; rw [scopedRest0_eq]
  iintro ⟨⟨⟨⟨%fs, HS⟩, Hrest⟩, Hg⟩, Ho, ⟨%d0, H0⟩, ⟨%d1, H1⟩, ⟨%d2, H2⟩⟩
  iapply (sound_kernel0 c Set.univ (grid0.coords t) (hcond0_0 t) (hcond0_1 t) _ _ _ _ _ _ _ _ (iblk0 V c 0 t) (iblk0 V c 1 t) _)
  isplitl [H0]; · iexact H0
  isplitl [H1]; · iexact H1
  isplitl [H2]; · iexists _; iexact H2
  isplitl [HS]
  · iexists fs; rw [owns_whole]; iexact HS
  iintro ⟨H0, H1, H2, ⟨%d3, HS⟩⟩
  isplitl [HS Hrest Hg]
  · isplitl [HS Hrest]
    · isplitl [HS]
      · iexists d3; rw [← owns_whole (c : Thread nD τ) cc0_scratch0 fullShare d3]; iexact HS
      iexact Hrest
    iexact Hg
  isplitl [Ho]; · iexact Ho
  isplitl [H0]; · iexact H0
  isplitl [H1]; · iexact H1
  iexact H2

theorem liveAt0_2 : ∀ t : Fin cfg0.N, idle0 2 (grid0.coords t) = false :=
  (by decide +kernel : ∀ t : Fin grid0.N, idle0 2 (grid0.coords t) = false)

theorem body_obligation0 (c : Dev nD) : BodyObligation (dat0 (F := F) V c) (defs₀ (F := F)) Variants.none () Set.univ := fun t => by
  rw [bigSep_W0, bigSep_W0]
  simp only [liveAt0_2 t]
  exact sound_body0 V c t

end Obligation

end Cert.KernelIdeal.Hand

end
-- ==== Proof.KIBody1.lean ====
/-
  Region 1's body: the same one-step matrix product as region 0, at the second layer's shapes.
-/
import proofs.«140601_j33998961115547_1_alg».proof.Proof.KIData
import Idealize.ShloMosaic.Lib.Pipeline.RegionsLoop
import Idealize.ShloMosaic.Lib.Pipeline.FrameSuffix
import Idealize.ShloMosaic.Lib.Ring
import Idealize.ShloMosaic.Lib.Tactic
import proofs.«140601_j33998961115547_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

theorem hcond1_0 : ∀ t : Fin cfg1.N, cond1_0 (grid1.coords t) :=
  (by decide +kernel : ∀ t : Fin grid1.N, cond1_0 (grid1.coords t))
theorem hcond1_1 : ∀ t : Fin cfg1.N, cond1_1 (grid1.coords t) :=
  (by decide +kernel : ∀ t : Fin grid1.N, cond1_1 (grid1.coords t))

set_option maxHeartbeats 1000000 in
theorem sound_kernel1 (c : Dev nD) (E : Set ℕ) (i : grid1.Coords) (hc0 : cond1_0 i) (hc1 : cond1_1 i)
    (arg3 : Memref sig .tc .vmem S512x512 .f32) (harg3 : arg3.IsWhole) (arg4 : Memref sig .tc .vmem S512x256 .f32) (harg4 : arg4.IsWhole)
    (arg5 : Memref sig .tc .vmem S512x256 .f32) (harg5 : arg5.IsWhole) (arg6 : Memref sig .tc .vmem S512x256 .f32) (harg6 : arg6.IsWhole)
    (x0 : Vec F S512x512 .f32) (x1 : Vec F S512x256 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out1_2 x0 x1) ∗ (∃ d, owns (c : Thread nD τ) arg6 fullShare d)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    have hz : (![0, 0] : Fin 2 → Nat) = fun _ => 0 := funext fun a => by fin_cases a <;> rfl
    rw [View.read_writes_eq_canon _ _ _ (View.cover_of_tiled _ S512x256.size (by rfl)), View.canon_unit_zero hz,
      WholeStore.readCov_cons _ hz, WholeStore.readCov_cons _ hz, WholeStore.readAt_whole _ hz, WholeStore.readAt_whole _ hz]
    rfl
  iexists _, _; isplitr
  swap; · iexact H3
  ipureintro; rfl

/-! ## The body obligation of region 1 -/

section Obligation
variable (V : (c : Dev nD) → (b : Ref sig .tc) → Buf (Elt F) ((c : Thread nD τ).loc b))

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: both conditions hold there; the accumulator is taken out of the region's invariant at some
    contents and put back at some contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl, after1_0, after1_1, after1_2]
  unfold Pipeline.ΦA; rw [scopedRest1_eq]
  iintro ⟨⟨⟨Ha, Hb, Hc, Hd, He, Hf, ⟨%fs, HS⟩, Hrest⟩, Hg⟩, Ho, ⟨%d0, H0⟩, ⟨%d1, H1⟩, ⟨%d2, H2⟩⟩
  iapply (sound_kernel1 c Set.univ (grid1.coords t) (hcond1_0 t) (hcond1_1 t) _ _ _ _ _ _ _ _ (iblk1 V c 0 t) (iblk1 V c 1 t) _)
  isplitl [H0]; · iexact H0
  isplitl [H1]; · iexact H1
  isplitl [H2]; · iexists _; iexact H2
  isplitl [HS]
  · iexists fs; rw [owns_whole]; iexact HS
  iintro ⟨H0, H1, H2, ⟨%d3, HS⟩⟩
  isplitl [HS Ha Hb Hc Hd He Hf Hrest Hg]
  · isplitl [HS Ha Hb Hc Hd He Hf Hrest]
    · isplitl [Ha]; · iexact Ha
      isplitl [Hb]; · iexact Hb
      isplitl [Hc]; · iexact Hc
      isplitl [Hd]; · iexact Hd
      isplitl [He]; · iexact He
      isplitl [Hf]; · iexact Hf
      isplitl [HS]
      · iexists d3; rw [← owns_whole (c : Thread nD τ) cc1_scratch0 fullShare d3]; iexact HS
      iexact Hrest
    iexact Hg
  isplitl [Ho]; · iexact Ho
  isplitl [H0]; · iexact H0
  isplitl [H1]; · iexact H1
  iexact H2

theorem liveAt1_2 : ∀ t : Fin cfg1.N, idle1 2 (grid1.coords t) = false :=
  (by decide +kernel : ∀ t : Fin grid1.N, idle1 2 (grid1.coords t) = false)

theorem body_obligation1 (c : Dev nD) : BodyObligation (dat1 (F := F) V c) (defs₀ (F := F)) Variants.none () Set.univ := fun t => by
  rw [bigSep_W1, bigSep_W1]
  simp only [liveAt1_2 t]
  exact sound_body1 V c t

end Obligation

end Cert.KernelIdeal.Hand

end
-- ==== Proof.KIBody2.lean ====
/-
  Region 2's body: two row blocks of the one operand are loaded, multiplied contracting the feature axis of both, the
  logistic function is applied and the result is stored to the whole output block.
-/
import proofs.«140601_j33998961115547_1_alg».proof.Proof.KIData
import Idealize.ShloMosaic.Lib.Pipeline.RegionsLoop
import Idealize.ShloMosaic.Lib.Pipeline.FrameSuffix
import Idealize.ShloMosaic.Lib.Ring
import Idealize.ShloMosaic.Lib.Tactic
import proofs.«140601_j33998961115547_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem sound_kernel2 (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole)
    (x0 : Vec F S1024x256 .f32) (x1 : Vec F S1024x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  have hz : (![0, 0] : Fin 2 → Nat) = fun _ => 0 := funext fun a => by fin_cases a <;> rfl
  rw [View.read_writes_eq_canon _ _ _ (View.cover_of_tiled _ S1024x1024.size (by rfl)), View.canon_unit_zero hz,
    WholeStore.readAt_whole _ hz, WholeStore.readAt_whole _ hz]
  rfl

/-! ## The body obligation of region 2 -/

section Obligation
variable (V : (c : Dev nD) → (b : Ref sig .tc) → Buf (Elt F) ((c : Thread nD τ).loc b))

/-- An input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 1000000 in
/-- The body at any point; the region's invariant passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl, after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Obligation

end Cert.KernelIdeal.Hand

end
-- ==== Proof.KIShare2.lean ====
/-
  Region 2's two input windows read ONE array. The buffers behind the windows' arrays are then two: the shared input
  array and the output array, each held whole at the full share. The full share of the input array splits into its
  left and right halves, one for each input window; the output window holds its array at the full share. Input arrays
  are never written back, so after the last point both halves still hold the entry contents and join back into the
  full share.
-/
import proofs.«140601_j33998961115547_1_alg».proof.Proof.KIData
import Idealize.ShloMosaic.Lib.Pipeline.Launch
import Idealize.ShloMosaic.Lib.Pipeline.Regions
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three windows' arrays, at contents G: the input array at its left half for window 0 and at its right half for
    window 1, the output array at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v107) ↦{fullShare.left} G 0) ∗ (((c : Thread nD τ).loc main_v107) ↦{fullShare.right} G 1)
          ∗ (((c : Thread nD τ).loc main_v108) ↦{fullShare} G 2)) := by
  unfold Dat.arrays
  rw [bigSep_W2]
  have hs0 : (cfg2.win 0).arr.view.set = Finset.univ := (arr_whole2 0).set_eq_univ
  have hs2 : (cfg2.win 2).arr.view.set = Finset.univ := (arr_whole2 2).set_eq_univ
  rw [hs0, hs2]
  rfl

/-- The distinct buffers behind the three windows' arrays are the input array and the output array. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_v107) ↦{fullShare} V' main_v107) ∗ (((c : Thread nD τ).loc main_v108) ↦{fullShare} V' main_v108)) := by
  unfold Pipeline.arrBufs
  rw [show Finset.univ.image (Pipeline.arrRef spec2) = {main_v107, main_v108} by decide,
    bigSep_insert (by decide), bigSep_singleton]
  rfl

/-- At region entry: the full share of the input array splits into the two input windows' halves. -/
theorem split2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrays2_eq, arrBufs2_eq]
  show iprop((((c : Thread nD τ).loc main_v107) ↦{fullShare} V c main_v107) ∗ (((c : Thread nD τ).loc main_v108) ↦{fullShare} V c main_v108))
    ⊢ iprop((((c : Thread nD τ).loc main_v107) ↦{fullShare.left} V c main_v107) ∗ (((c : Thread nD τ).loc main_v107) ↦{fullShare.right} V c main_v107)
        ∗ (((c : Thread nD τ).loc main_v108) ↦{fullShare} V c main_v108))
  iintro ⟨H1, H2⟩
  ihave H := (pointsTo_share (PosShare.mem_left_op_right fullShare)).1 $$ H1
  icases H with ⟨Ha, Hb⟩
  isplitl [Ha]; · iexact Ha
  isplitl [Hb]; · iexact Hb
  iexact H2

/-- After the last point: the two halves, still at the entry contents, join back into the full share. -/
theorem join2 (c : Dev nD) (V' : (b : Ref sig .tc) → Buf (Elt F) ((c : Thread nD τ).loc b))
    (h107 : V' main_v107 = V c main_v107) (h108 : V' main_v108 = (dat2 V c).arrAt 2 cfg2.N) :
    (dat2 V c).arrays ((dat2 V c).arrAt · cfg2.N)
      ⊢ (Pipeline.arrBufs (Ix := Unit) (Name := ℕ) (U := UR sig nD τ) (Lvl := ℕ) spec2 c V' : sProp 𝕄) := by
  rw [arrays2_eq, arrBufs2_eq, h107, h108, (dat2 V c).arrAt_in 0 rfl cfg2.N, (dat2 V c).arrAt_in 1 rfl cfg2.N]
  show iprop((((c : Thread nD τ).loc main_v107) ↦{fullShare.left} V c main_v107) ∗ (((c : Thread nD τ).loc main_v107) ↦{fullShare.right} V c main_v107)
        ∗ (((c : Thread nD τ).loc main_v108) ↦{fullShare} (dat2 V c).arrAt 2 cfg2.N))
    ⊢ iprop((((c : Thread nD τ).loc main_v107) ↦{fullShare} V c main_v107) ∗ (((c : Thread nD τ).loc main_v108) ↦{fullShare} (dat2 V c).arrAt 2 cfg2.N))
  iintro ⟨Ha, Hb, Hc⟩
  isplitl [Ha Hb]
  · iapply (pointsTo_share (PosShare.mem_left_op_right fullShare)).2
    isplitl [Ha]; · iexact Ha
    iexact Hb
  iexact Hc

end Cert.KernelIdeal.Hand

end
-- ==== Proof.KIRun.lean ====
/-
  The run of the whole program: the three kernel regions among the stretches of host operations, each region entered
  from what the item before it left. Between two items a core holds every unscoped buffer at the contents `UJ m c`
  (the launch memory, then each host stretch applied, then each region's output array at what its write-backs leave),
  the generator register at some state, and owes nothing. The run ends with the result array at what region 2 leaves
  and every argument array as launched.
-/
import proofs.«140601_j33998961115547_1_alg».proof.Proof.KIBody0
import proofs.«140601_j33998961115547_1_alg».proof.Proof.KIBody1
import proofs.«140601_j33998961115547_1_alg».proof.Proof.KIBody2
import proofs.«140601_j33998961115547_1_alg».proof.Proof.KIShare2
import proofs.«140601_j33998961115547_1_alg».proof.Proof.Gen.KernelIdeal.Regions
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev T2 : (c : Dev nD) → (b : Ref sig .tc) → Buf (Elt F) ((c : Thread nD τ).loc b) := fun c b => U2 m c b
abbrev T4 : (c : Dev nD) → (b : Ref sig .tc) → Buf (Elt F) ((c : Thread nD τ).loc b) := fun c b => U4 m c b
abbrev T6 : (c : Dev nD) → (b : Ref sig .tc) → Buf (Elt F) ((c : Thread nD τ).loc b) := fun c b => U6 m c b

/-! ## What a region changes: its output array only -/

theorem U2_out (c : Dev nD) : U2 m c main_v4 = o2 m c := Function.update_self _ _ _
theorem U2_of_ne (c : Dev nD) (b : Ref sig .tc) (h : b ≠ main_v4) : U2 m c b = U1 m c b :=
  Function.update_of_ne (StableHlo.devRef_ne_of_ne h) _ _
theorem U4_out (c : Dev nD) : U4 m c main_v56 = o4 m c := Function.update_self _ _ _
theorem U4_of_ne (c : Dev nD) (b : Ref sig .tc) (h : b ≠ main_v56) : U4 m c b = U3 m c b :=
  Function.update_of_ne (StableHlo.devRef_ne_of_ne h) _ _
theorem U6_out (c : Dev nD) : U6 m c main_v108 = o6 m c := Function.update_self _ _ _
theorem U6_of_ne (c : Dev nD) (b : Ref sig .tc) (h : b ≠ main_v108) : U6 m c b = U5 m c b :=
  Function.update_of_ne (StableHlo.devRef_ne_of_ne h) _ _

theorem hF0 (c : Dev nD) (w : Fin cfg0.W) : (dat0 (T1 m) c).arrAt w cfg0.N = T2 m c (Pipeline.arrRef spec0 w) :=
  match w with
  | ⟨0, _⟩ => ((dat0 (T1 m) c).arrAt_in 0 rfl _).trans ((A_eq0 (T1 m) c 0).trans (U2_of_ne m c main_arg0 (by decide)).symm)
  | ⟨1, _⟩ => ((dat0 (T1 m) c).arrAt_in 1 rfl _).trans ((A_eq0 (T1 m) c 1).trans (U2_of_ne m c main_arg1 (by decide)).symm)
  | ⟨2, _⟩ => (U2_out m c).symm
theorem hrest0 (c : Dev nD) : ∀ b, b ∉ Finset.univ.image (Pipeline.arrRef spec0) → T2 m c b = T1 m c b :=
  fun b hb => U2_of_ne m c b fun e => hb (Finset.mem_image.mpr ⟨2, Finset.mem_univ _, e.symm⟩)

theorem hF1 (c : Dev nD) (w : Fin cfg1.W) : (dat1 (T3 m) c).arrAt w cfg1.N = T4 m c (Pipeline.arrRef spec1 w) :=
  match w with
  | ⟨0, _⟩ => ((dat1 (T3 m) c).arrAt_in 0 rfl _).trans ((A_eq1 (T3 m) c 0).trans (U4_of_ne m c main_v55 (by decide)).symm)
  | ⟨1, _⟩ => ((dat1 (T3 m) c).arrAt_in 1 rfl _).trans ((A_eq1 (T3 m) c 1).trans (U4_of_ne m c main_arg2 (by decide)).symm)
  | ⟨2, _⟩ => (U4_out m c).symm
theorem hrest1 (c : Dev nD) : ∀ b, b ∉ Finset.univ.image (Pipeline.arrRef spec1) → T4 m c b = T3 m c b :=
  fun b hb => U4_of_ne m c b fun e => hb (Finset.mem_image.mpr ⟨2, Finset.mem_univ _, e.symm⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U6 m c) ∗ ∃ r, prngReg c r)

/-! ## The regions as segments -/

set_option backward.isDefEq.respectTransparency.types false in
/-- Region 0 over the thread state: entered from every unscoped buffer at the contents before it, left with its
    output array at what the write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    output array at what the write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state. Its two input windows read one array: the array's buffer is split into two half
    shares on entry and joined again on exit; the output array ends at what the write-backs leave. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit : (StableHlo.held (c : Thread nD τ) (Pipeline.ucRefs τ sig) (U5 m c) : sProp 𝕄)
        ⊢ iprop((pdats m 2 c).arrays ((pdats m 2 c).arrAt · 0)
            ∗ Pipeline.unscopedRest (Ix := Unit) (Name := ℕ) (U := UR sig nD τ) (Lvl := ℕ) spec2 c (T5 m c)) := by
      rw [← Pipeline.unscopedBufs_held, Pipeline.unscopedBufs_split₀ cfgs 2 winFacts₀2.arr_unscoped c (T5 m c)]
      exact sep_mono (split2 (T5 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
            ∗ Pipeline.unscopedRest (Ix := Unit) (Name := ℕ) (U := UR sig nD τ) (Lvl := ℕ) spec2 c (T5 m c))
        ⊢ (StableHlo.held (c : Thread nD τ) (Pipeline.ucRefs τ sig) (U6 m c) : sProp 𝕄) := by
      rw [← Pipeline.unscopedBufs_held, Pipeline.unscopedBufs_split₀ cfgs 2 winFacts₀2.arr_unscoped c (T6 m c)]
      refine sep_mono (join2 (T5 m) c (T6 m c) (U6_of_ne m c main_v107 (by decide)) (U6_out m c)) (Entails.of_eq ?_)
      unfold Pipeline.unscopedRest
      exact bigSep_congr fun b hb => by
        rw [show T6 m c b = T5 m c b from U6_of_ne m c b fun e => (Finset.mem_sdiff.mp hb).2 (Finset.mem_image.mpr ⟨2, Finset.mem_univ _, e.symm⟩)]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m),
    .host (hseg hostOps2 hostOps2_sub hostOps2_fresh (U4 m)),
    .region (reg2 m) ]

theorem main_run (c : Dev nD) : main (F := F) c = Pipeline.Seg.run (segs m) := (main_chain c).trans (by chain_rfl)

/-- No host operation writes an argument array, and no region changes one. -/
theorem U6_arg (c : Dev nD) (b : Ref sig .tc) (h6 : b ≠ main_v108) (h4 : b ≠ main_v56) (h2 : b ≠ main_v4)
    (w2 : b ∉ hostOps2_W) (w1 : b ∉ hostOps1_W) (w0 : b ∉ hostOps0_W) : U6 m c b = m ((c : Thread nD τ).loc b) :=
  (U6_of_ne m c b h6).trans <| (StableHlo.after_of_writes_sub hostOps2 _ hostOps2_writes w2).trans <|
    (U4_of_ne m c b h4).trans <| (StableHlo.after_of_writes_sub hostOps1 _ hostOps1_writes w1).trans <|
    (U2_of_ne m c b h2).trans <| (StableHlo.after_of_writes_sub hostOps0 _ hostOps0_writes w0).trans rfl

variable (ρ : Dev nD → PrngReg)

set_option backward.isDefEq.respectTransparency.types false in
/-- THE RUN. From any memory with zero counters every weakly fair execution of the program terminates, nothing faulting,
    with the result array at what region 2 leaves and every argument array as launched. -/
theorem run_main : θ_run defs (onTc (τ := τ) (main (F := F))) ⟨m, fun _ => 0, ρ⟩ (fun r => ∀ c : Dev nD,
      r.2.mem ((c.tc : Thread nD τ).loc main_v108) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c =>
      ⟨(h c _ (mem_uc main_v108 (by decide))).trans (U6_out m c),
       (h c _ (mem_uc main_arg0 (by decide))).trans (U6_arg m c main_arg0 (by decide) (by decide) (by decide) (by decide) (by decide) (by decide)),
       (h c _ (mem_uc main_arg1 (by decide))).trans (U6_arg m c main_arg1 (by decide) (by decide) (by decide) (by decide) (by decide) (by decide)),
       (h c _ (mem_uc main_arg2 (by decide))).trans (U6_arg m c main_arg2 (by decide) (by decide) (by decide) (by decide) (by decide) (by decide)),
       (h c _ (mem_uc main_arg3 (by decide))).trans (U6_arg m c main_arg3 (by decide) (by decide) (by decide) (by decide) (by decide) (by decide)),
       (h c _ (mem_uc main_arg4 (by decide))).trans (U6_arg m c main_arg4 (by decide) (by decide) (by decide) (by decide) (by decide) (by decide)),
       (h c _ (mem_uc main_arg5 (by decide))).trans (U6_arg m c main_arg5 (by decide) (by decide) (by decide) (by decide) (by decide) (by decide)),
       (h c _ (mem_uc main_arg6 (by decide))).trans (U6_arg m c main_arg6 (by decide) (by decide) (by decide) (by decide) (by decide) (by decide)),
       (h c _ (mem_uc main_arg7 (by decide))).trans (U6_arg m c main_arg7 (by decide) (by decide) (by decide) (by decide) (by decide) (by decide)),
       (h c _ (mem_uc main_arg8 (by decide))).trans (U6_arg m c main_arg8 (by decide) (by decide) (by decide) (by decide) (by decide) (by decide))⟩)

end Cert.KernelIdeal.Hand

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.KIVal0.lean ====
/-
  What region 0 leaves in its output array, as one function of the two arrays it reads.

  Region 0 is a matrix product with a single step on the contracted axis: at grid point t the left operand's block is rows
  512 t … 512 t + 511 of the first array (all 512 columns), the right operand's block is the whole second array, and the
  stored block is zero plus the product of the two blocks accumulated into zero. Read at (p, q) that is
  ∑ k, x0 (p, k) * x1 (k, q) on the extended reals (the narrowing of the operands is the identity there and 0 + x = x),
  which is the whole-array product of the two arrays at (512 t + p, q). The 32 output blocks tile the array by rows,
  so the array ends holding the product.
-/
import proofs.«140601_j33998961115547_1_alg».proof.Proof.KIData
import proofs.«140601_j33998961115547_1_alg».proof.Proof.Gen.ReferenceIdeal
import proofs.«140601_j33998961115547_1_alg».proof.Proof.LibDotRow
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The two contractions, read at an index -/

theorem kdot0_lhs0 (j : S512x512.Idx) (k : dot_S512x512_S512x512_S512x512_1_0_0_1_n_n.contr.Idx) :
    (dot_S512x512_S512x512_S512x512_1_0_0_1_n_n.lhsIdx j k 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl

theorem kdot0_rhs1 (j : S512x512.Idx) (k : dot_S512x512_S512x512_S512x512_1_0_0_1_n_n.contr.Idx) :
    (dot_S512x512_S512x512_S512x512_1_0_0_1_n_n.rhsIdx j k 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The stored block at (p, q): zero plus the product into a zero accumulator is the sum over the contracted coordinate. -/
theorem out0_apply (x0 x1 : Vec Ideal S512x512 .f32) (p q : Fin 512) :
    Hand.out0_2 (F := Ideal) x0 x1 (ix2 p q) = ∑ k : Fin 512, x0 (ix2 p k) * x1 (ix2 k q) := by
  unfold Hand.out0_2 k0_pay2 k0_pay1
  dsimp only []
  rw [shapeCast_self, shapeCast_self, addf_apply, broadcast_apply]
  show Ideal.ofBits .f32 0x00000000#32 + FloatOps.matmul dot_S512x512_S512x512_S512x512_1_0_0_1_n_n none (truncf .bf16 x0 bitsLt_bf16_f32) (truncf .bf16 x1 bitsLt_bf16_f32) (constant S512x512 .f32 0x00000000#32) (ix2 p q) = _
  rw [Ideal.ofBits_zero_f32, zero_add, Ideal.matmul_constant_zero_apply]
  exact DotRow.sum_contr dot_S512x512_S512x512_S512x512_1_0_0_1_n_n rfl rfl rfl rfl kdot0_lhs0 kdot0_rhs1
    x0 x1 p q

theorem rdot0_lhs0 (j : Cert.ReferenceIdeal.S16384x512.Idx) (k : Cert.ReferenceIdeal.dot_S16384x512_S512x512_S16384x512_1_0_0_1_n_n.contr.Idx) :
    (Cert.ReferenceIdeal.dot_S16384x512_S512x512_S16384x512_1_0_0_1_n_n.lhsIdx j k 0).val = (j 0).val := by
  unfold DotDims.lhsIdx
  rw [dif_neg (show ¬(0 : Fin Cert.ReferenceIdeal.S16384x512.rank) ∈ Cert.ReferenceIdeal.dot_S16384x512_S512x512_S16384x512_1_0_0_1_n_n.lhsBatch by decide), dif_pos (show (0 : Fin Cert.ReferenceIdeal.S16384x512.rank) ∈ Cert.ReferenceIdeal.dot_S16384x512_S512x512_S16384x512_1_0_0_1_n_n.lhsNonContracting by decide)]
  rfl

theorem rdot0_rhs1 (j : Cert.ReferenceIdeal.S16384x512.Idx) (k : Cert.ReferenceIdeal.dot_S16384x512_S512x512_S16384x512_1_0_0_1_n_n.contr.Idx) :
    (Cert.ReferenceIdeal.dot_S16384x512_S512x512_S16384x512_1_0_0_1_n_n.rhsIdx j k 1).val = (j 1).val := by
  unfold DotDims.rhsIdx
  rw [dif_neg (show ¬(1 : Fin Cert.ReferenceIdeal.S512x512.rank) ∈ Cert.ReferenceIdeal.dot_S16384x512_S512x512_S16384x512_1_0_0_1_n_n.rhsBatch by decide), dif_pos (show (1 : Fin Cert.ReferenceIdeal.S512x512.rank) ∈ Cert.ReferenceIdeal.dot_S16384x512_S512x512_S16384x512_1_0_0_1_n_n.rhsNonContracting by decide)]
  rfl

/-- The whole-array product of the two operand arrays. -/
abbrev prod0 (A : S16384x512.Idx → EReal) (B : S512x512.Idx → EReal) : S16384x512.Idx → EReal :=
  Host.dotGeneral (F := Ideal) (φ₁ := .f32) (φ₂ := .f32) Cert.ReferenceIdeal.dot_S16384x512_S512x512_S16384x512_1_0_0_1_n_n none A B

/-- The host's product at (r, q) is the sum over the contracted coordinate. -/
theorem prod0_apply (A : S16384x512.Idx → EReal) (B : S512x512.Idx → EReal) (r : Fin 16384) (q : Fin 512) :
    prod0 A B (ix2 r q) = ∑ k : Fin 512, A (ix2 r k) * B (ix2 k q) := by
  show FloatOps.dotGeneral (F := Ideal) (φ₁ := .f32) (φ₂ := .f32) Cert.ReferenceIdeal.dot_S16384x512_S512x512_S16384x512_1_0_0_1_n_n none .single A B (ix2 r q) = _
  rw [Ideal.dotGeneral_apply]
  exact DotRow.sum_contr Cert.ReferenceIdeal.dot_S16384x512_S512x512_S16384x512_1_0_0_1_n_n rfl rfl rfl rfl rdot0_lhs0 rdot0_rhs1 A B r q

/-- A block whose left operand is rows i*512 … of A and whose right operand is all of B stores those rows of the product. -/
theorem block0 (A : S16384x512.Idx → EReal) (B : S512x512.Idx → EReal) (x0 x1 : Vec Ideal S512x512 .f32) (i : Nat) (hi : i < 32)
    (h0 : ∀ (p k : Fin 512), x0 (ix2 p k) = A (ix2 (⟨i * 512 + p.val, by have := p.isLt; omega⟩ : Fin 16384) k))
    (h1 : ∀ (k q : Fin 512), x1 (ix2 k q) = B (ix2 k q)) (p q : Fin 512) :
    Hand.out0_2 (F := Ideal) x0 x1 (ix2 p q) = prod0 A B (ix2 (⟨i * 512 + p.val, by have := p.isLt; omega⟩ : Fin 16384) q) := by
  rw [out0_apply, prod0_apply]
  exact Finset.sum_congr rfl fun k _ => by rw [h0, h1]

/-! ## From blocks to the array -/

theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

theorem flushed0_eq (c : Dev nD) (t : Fin cfg0.N) :
    (Hand.dat0 V c).flushed 2 t = ((cfg0.win 2).blk t).view.read (Elt Ideal) (prod0 (V c main_arg0) (V c main_arg1)) := by
  show (cfg0.win 2).cut (grid0.coords t) ((Hand.dat0 V c).after 2 t) = _
  rw [Hand.after0_2]
  obtain ⟨e0, e1, e2, e3, e4, e5⟩ := idx_facts0 t
  have ht : t.val < 32 := by have h := t.isLt; have hN : cfg0.N = 32 := N_0; omega
  funext j
  obtain ⟨p, q, rfl⟩ : ∃ (p q : Fin 512), j = ix2 p q := ⟨j 0, j 1, eq_ix2 j⟩
  refine (block0 (V c main_arg0) (V c main_arg1) (Hand.iblk0 V c 0 t) (Hand.iblk0 V c 1 t) t.val ht ?_ ?_ p q).trans ?_
  · intro p k
    show V c main_arg0 (((cfg0.win 0).blk t).view.emb (ix2 p k)) = V c main_arg0 _
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 512 + 1 * k.val = k.val; omega
  · intro k q
    show V c main_arg1 (((cfg0.win 1).blk t).view.emb (ix2 k q)) = V c main_arg1 _
    refine congrArg _ (funext fun a => Fin.ext ?_)
    match a with
    | ⟨0, _⟩ => show win0_1.index t (0 : Fin 2) * 512 + 1 * k.val = k.val; omega
    | ⟨1, _⟩ => show win0_1.index t (1 : Fin 2) * 512 + 1 * q.val = q.val; omega
  · show prod0 (V c main_arg0) (V c main_arg1) _ = prod0 (V c main_arg0) (V c main_arg1) (((cfg0.win 2).blk t).view.emb (ix2 p q))
    refine congrArg _ (funext fun a => Fin.ext ?_)
    match a with
    | ⟨0, _⟩ => show t.val * 512 + p.val = win0_2.index t (0 : Fin 2) * 512 + 1 * p.val; omega
    | ⟨1, _⟩ => show q.val = win0_2.index t (1 : Fin 2) * 512 + 1 * q.val; omega

/-- An index of the array is in point t's block iff each coordinate is in the block's range on its axis. -/
theorem mem_blk0 (t : Fin cfg0.N) (i : S16384x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v4).slice (win0_2.rect t)).set ↔ _
  rw [View.set_slice_whole, Rect.mem_set_unit]
  exact Iff.rfl

/-- Row r lies in the block of point r / 512. -/
theorem cover0 (i : S16384x512.Idx) : ∃ t : Fin cfg0.N, (cfg0.win 2).flush t = true ∧ i ∈ ((cfg0.win 2).blk t).view.set := by
  have hi0 : (i 0).val < 16384 := (i 0).isLt
  have hi1 : (i 1).val < 512 := (i 1).isLt
  have hN : cfg0.N = 32 := N_0
  let t : Fin cfg0.N := ⟨(i 0).val / 512, by omega⟩
  obtain ⟨e0, e1, e2, e3, e4, e5⟩ := idx_facts0 t
  have e5' : win0_2.index t (0 : Fin 2) = (i 0).val / 512 := e5
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The array region 0 leaves is the product of its two operand arrays. -/
theorem final0 (c : Dev nD) :
    (Hand.dat0 (F := Ideal) V c).arrAt 2 cfg0.N
      = Host.dotGeneral (F := Ideal) (φ₁ := .f32) (φ₂ := .f32) Cert.ReferenceIdeal.dot_S16384x512_S512x512_S16384x512_1_0_0_1_n_n none (V c main_arg0) (V c main_arg1) :=
  (Hand.dat0 V c).arrAt_eq_of_cover 2 (prod0 (V c main_arg0) (V c main_arg1)) (fun t _ => flushed0_eq V c t) cover0

end Cert.KernelIdeal.Val

end
-- ==== Proof.KIVal1.lean ====
/-
  What region 1 leaves in its output array, as one function of the two arrays it reads.

  Region 1 is a matrix product with a single step on the contracted axis: at grid point t the left operand's block is rows
  512 t … 512 t + 511 of the hidden array (all 512 columns), the right operand's block is the whole 512 × 256 weight
  array, and the stored block is zero plus the product of the two blocks accumulated into zero. Read at (p, q) that is
  ∑ k, x0 (p, k) * x1 (k, q) on the extended reals (the narrowing of the operands is the identity there and 0 + x = x),
  which is the whole-array product of the two arrays at (512 t + p, q). The 32 output blocks tile the array by rows,
  so the array ends holding the product.
-/
import proofs.«140601_j33998961115547_1_alg».proof.Proof.KIData
import proofs.«140601_j33998961115547_1_alg».proof.Proof.Gen.ReferenceIdeal
import proofs.«140601_j33998961115547_1_alg».proof.Proof.LibDotRow
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The two contractions, read at an index -/

theorem kdot1_lhs0 (j : S512x256.Idx) (k : dot_S512x512_S512x256_S512x256_1_0_0_1_n_n.contr.Idx) :
    (dot_S512x512_S512x256_S512x256_1_0_0_1_n_n.lhsIdx j k 0).val = (j 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl

theorem kdot1_rhs1 (j : S512x256.Idx) (k : dot_S512x512_S512x256_S512x256_1_0_0_1_n_n.contr.Idx) :
    (dot_S512x512_S512x256_S512x256_1_0_0_1_n_n.rhsIdx j k 1).val = (j 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The stored block at (p, q): zero plus the product into a zero accumulator is the sum over the contracted coordinate. -/
theorem out1_apply (x0 : Vec Ideal S512x512 .f32) (x1 : Vec Ideal S512x256 .f32) (p : Fin 512) (q : Fin 256) :
    Hand.out1_2 (F := Ideal) x0 x1 (ix2 p q) = ∑ k : Fin 512, x0 (ix2 p k) * x1 (ix2 k q) := by
  unfold Hand.out1_2 k1_pay2 k1_pay1
  dsimp only []
  rw [shapeCast_self, shapeCast_self, shapeCast_self, addf_apply, broadcast_apply]
  show Ideal.ofBits .f32 0x00000000#32 + FloatOps.matmul dot_S512x512_S512x256_S512x256_1_0_0_1_n_n none (truncf .bf16 x0 bitsLt_bf16_f32) (truncf .bf16 x1 bitsLt_bf16_f32) (constant S512x256 .f32 0x00000000#32) (ix2 p q) = _
  rw [Ideal.ofBits_zero_f32, zero_add, Ideal.matmul_constant_zero_apply]
  exact DotRow.sum_contr dot_S512x512_S512x256_S512x256_1_0_0_1_n_n rfl rfl rfl rfl kdot1_lhs0 kdot1_rhs1 x0 x1 p q

theorem rdot1_lhs0 (j : Cert.ReferenceIdeal.S16384x256.Idx) (k : Cert.ReferenceIdeal.dot_S16384x512_S512x256_S16384x256_1_0_0_1_n_n.contr.Idx) :
    (Cert.ReferenceIdeal.dot_S16384x512_S512x256_S16384x256_1_0_0_1_n_n.lhsIdx j k 0).val = (j 0).val := by
  unfold DotDims.lhsIdx
  rw [dif_neg (show ¬(0 : Fin Cert.ReferenceIdeal.S16384x512.rank) ∈ Cert.ReferenceIdeal.dot_S16384x512_S512x256_S16384x256_1_0_0_1_n_n.lhsBatch by decide), dif_pos (show (0 : Fin Cert.ReferenceIdeal.S16384x512.rank) ∈ Cert.ReferenceIdeal.dot_S16384x512_S512x256_S16384x256_1_0_0_1_n_n.lhsNonContracting by decide)]
  rfl

theorem rdot1_rhs1 (j : Cert.ReferenceIdeal.S16384x256.Idx) (k : Cert.ReferenceIdeal.dot_S16384x512_S512x256_S16384x256_1_0_0_1_n_n.contr.Idx) :
    (Cert.ReferenceIdeal.dot_S16384x512_S512x256_S16384x256_1_0_0_1_n_n.rhsIdx j k 1).val = (j 1).val := by
  unfold DotDims.rhsIdx
  rw [dif_neg (show ¬(1 : Fin Cert.ReferenceIdeal.S512x256.rank) ∈ Cert.ReferenceIdeal.dot_S16384x512_S512x256_S16384x256_1_0_0_1_n_n.rhsBatch by decide), dif_pos (show (1 : Fin Cert.ReferenceIdeal.S512x256.rank) ∈ Cert.ReferenceIdeal.dot_S16384x512_S512x256_S16384x256_1_0_0_1_n_n.rhsNonContracting by decide)]
  rfl

/-- The whole-array product of the two operand arrays. -/
abbrev prod1 (A : S16384x512.Idx → EReal) (B : S512x256.Idx → EReal) : S16384x256.Idx → EReal :=
  Host.dotGeneral (F := Ideal) (φ₁ := .f32) (φ₂ := .f32) Cert.ReferenceIdeal.dot_S16384x512_S512x256_S16384x256_1_0_0_1_n_n none A B

/-- The host's product at (r, q) is the sum over the contracted coordinate. -/
theorem prod1_apply (A : S16384x512.Idx → EReal) (B : S512x256.Idx → EReal) (r : Fin 16384) (q : Fin 256) :
    prod1 A B (ix2 r q) = ∑ k : Fin 512, A (ix2 r k) * B (ix2 k q) := by
  show FloatOps.dotGeneral (F := Ideal) (φ₁ := .f32) (φ₂ := .f32) Cert.ReferenceIdeal.dot_S16384x512_S512x256_S16384x256_1_0_0_1_n_n none .single A B (ix2 r q) = _
  rw [Ideal.dotGeneral_apply]
  exact DotRow.sum_contr Cert.ReferenceIdeal.dot_S16384x512_S512x256_S16384x256_1_0_0_1_n_n rfl rfl rfl rfl rdot1_lhs0 rdot1_rhs1 A B r q

/-- A block whose left operand is rows i*512 … of A and whose right operand is all of B stores those rows of the product. -/
theorem block1 (A : S16384x512.Idx → EReal) (B : S512x256.Idx → EReal) (x0 : Vec Ideal S512x512 .f32) (x1 : Vec Ideal S512x256 .f32) (i : Nat) (hi : i < 32)
    (h0 : ∀ (p k : Fin 512), x0 (ix2 p k) = A (ix2 (⟨i * 512 + p.val, by have := p.isLt; omega⟩ : Fin 16384) k))
    (h1 : ∀ (k : Fin 512) (q : Fin 256), x1 (ix2 k q) = B (ix2 k q)) (p : Fin 512) (q : Fin 256) :
    Hand.out1_2 (F := Ideal) x0 x1 (ix2 p q) = prod1 A B (ix2 (⟨i * 512 + p.val, by have := p.isLt; omega⟩ : Fin 16384) q) := by
  rw [out1_apply, prod1_apply]
  exact Finset.sum_congr rfl fun k _ => by rw [h0, h1]

/-! ## From blocks to the array -/

theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

theorem flushed1_eq (c : Dev nD) (t : Fin cfg1.N) :
    (Hand.dat1 V c).flushed 2 t = ((cfg1.win 2).blk t).view.read (Elt Ideal) (prod1 (V c main_v55) (V c main_arg2)) := by
  show (cfg1.win 2).cut (grid1.coords t) ((Hand.dat1 V c).after 2 t) = _
  rw [Hand.after1_2]
  obtain ⟨e0, e1, e2, e3, e4, e5⟩ := idx_facts1 t
  have ht : t.val < 32 := by have h := t.isLt; have hN : cfg1.N = 32 := N_1; omega
  funext j
  obtain ⟨p, q, rfl⟩ : ∃ (p : Fin 512) (q : Fin 256), j = ix2 p q := ⟨j 0, j 1, eq_ix2 j⟩
  refine (block1 (V c main_v55) (V c main_arg2) (Hand.iblk1 V c 0 t) (Hand.iblk1 V c 1 t) t.val ht ?_ ?_ p q).trans ?_
  · intro p k
    show V c main_v55 (((cfg1.win 0).blk t).view.emb (ix2 p k)) = V c main_v55 _
    refine congrArg _ (funext fun a => Fin.ext ?_)
    match a with
    | ⟨0, _⟩ => show win1_0.index t (0 : Fin 2) * 512 + 1 * p.val = t.val * 512 + p.val; omega
    | ⟨1, _⟩ => show win1_0.index t (1 : Fin 2) * 512 + 1 * k.val = k.val; omega
  · intro k q
    show V c main_arg2 (((cfg1.win 1).blk t).view.emb (ix2 k q)) = V c main_arg2 _
    refine congrArg _ (funext fun a => Fin.ext ?_)
    match a with
    | ⟨0, _⟩ => show win1_1.index t (0 : Fin 2) * 512 + 1 * k.val = k.val; omega
    | ⟨1, _⟩ => show win1_1.index t (1 : Fin 2) * 256 + 1 * q.val = q.val; omega
  · show prod1 (V c main_v55) (V c main_arg2) _ = prod1 (V c main_v55) (V c main_arg2) (((cfg1.win 2).blk t).view.emb (ix2 p q))
    refine congrArg _ (funext fun a => Fin.ext ?_)
    match a with
    | ⟨0, _⟩ => show t.val * 512 + p.val = win1_2.index t (0 : Fin 2) * 512 + 1 * p.val; omega
    | ⟨1, _⟩ => show q.val = win1_2.index t (1 : Fin 2) * 256 + 1 * q.val; omega

/-- An index of the array is in point t's block iff each coordinate is in the block's range on its axis. -/
theorem mem_blk1 (t : Fin cfg1.N) (i : S16384x256.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v56).slice (win1_2.rect t)).set ↔ _
  rw [View.set_slice_whole, Rect.mem_set_unit]
  exact Iff.rfl

/-- Row r lies in the block of point r / 512. -/
theorem cover1 (i : S16384x256.Idx) : ∃ t : Fin cfg1.N, (cfg1.win 2).flush t = true ∧ i ∈ ((cfg1.win 2).blk t).view.set := by
  have hi0 : (i 0).val < 16384 := (i 0).isLt
  have hi1 : (i 1).val < 256 := (i 1).isLt
  have hN : cfg1.N = 32 := N_1
  let t : Fin cfg1.N := ⟨(i 0).val / 512, by omega⟩
  obtain ⟨e0, e1, e2, e3, e4, e5⟩ := idx_facts1 t
  have e5' : win1_2.index t (0 : Fin 2) = (i 0).val / 512 := e5
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 256 ≤ (i 1).val ∧ (i 1).val < win1_2.index t (1 : Fin 2) * 256 + 256; omega

/-- The array region 1 leaves is the product of its two operand arrays. -/
theorem final1 (c : Dev nD) :
    (Hand.dat1 (F := Ideal) V c).arrAt 2 cfg1.N
      = Host.dotGeneral (F := Ideal) (φ₁ := .f32) (φ₂ := .f32) Cert.ReferenceIdeal.dot_S16384x512_S512x256_S16384x256_1_0_0_1_n_n none (V c main_v55) (V c main_arg2) :=
  (Hand.dat1 V c).arrAt_eq_of_cover 2 (prod1 (V c main_v55) (V c main_arg2)) (fun t _ => flushed1_eq V c t) cover1

end Cert.KernelIdeal.Val

end
-- ==== Proof.LibDotRowT.lean ====
/-
  A matrix product with ONE contracted axis against a TRANSPOSED right operand, read at an index, as a sum over the
  contracted coordinate.

  For dimension numbers `d` of an [M, K] by [N, K] product into [M, N] — both operands contracted on their
  second axis — the sum over the contraction index set of `L (d.lhsIdx (p, f) k) * R (d.rhsIdx (p, f) k)` is
  `∑ k : Fin K, L (p, k) * R (f, k)`: the contraction index is its one coordinate, the left operand's row is the
  output's row and the right operand's ROW the output's column.
-/
import Idealize.ShloMosaic.Lib.ValueIdx
import Idealize.ShloMosaic.PureOps.Ideal.Laws

noncomputable section

namespace Idealize.ShloMosaic.DotRowT

open Idealize.ShloMosaic Idealize.ShloMosaic.ValueIdx

variable {M K N : Nat}

/-- The contraction's sum over its index set is the sum over the contracted coordinate. -/
theorem sum_contr (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 0).val = (j 1).val)
    (L : (⟨2, ![M, K]⟩ : Shape).Idx → EReal) (R : (⟨2, ![N, K]⟩ : Shape).Idx → EReal) (p : Fin M) (f : Fin N) :
    ∑ k : d.contr.Idx, L (d.lhsIdx (ix2 p f) k) * R (d.rhsIdx (ix2 p f) k) = ∑ k : Fin K, L (ix2 p k) * R (ix2 f k) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 f k := by
    funext a; apply Fin.ext
    match a with
    | ⟨0, _⟩ => exact h1 _ _
    | ⟨1, _⟩ =>
      show (d.rhsIdx (ix2 p f) ((contrEquiv1 d K hrank hsize).symm k) 1).val = k.val
      rw [d.rhsIdx_val_of_single hr]
      exact contrEquiv1_symm_val d K hrank hsize k
  rw [el, er]

end Idealize.ShloMosaic.DotRowT

end
-- ==== Proof.KIVal2.lean ====
/-
  What region 2 leaves in its output array, as one function of the one array it reads.

  Region 2 is the decoder: at grid point (i, j) the first block is rows 1024 i … of the embedding array, the second block
  is rows 1024 j … of the SAME array, and the stored block is the logistic function of the product of the two blocks
  contracted on the feature axis of both, accumulated into zero. Read at (p, q) that is
  logistic (∑ k, x0 (p, k) * x1 (q, k)) on the extended reals. The reference transposes the array, contracts the
  array's second axis with the transposed copy's first, and applies 1 / (1 + exp (-x)); at (r, s) that is the logistic
  function of ∑ k, h (r, k) * h (s, k), because the transposed copy at (k, s) is h at (s, k) and the word of the
  constant is the real one. The 16 × 16 output blocks tile the array, so the array ends holding the reference's
  decoder of the embedding array.
-/
import proofs.«140601_j33998961115547_1_alg».proof.Proof.KIData
import proofs.«140601_j33998961115547_1_alg».proof.Proof.Gen.ReferenceIdeal
import proofs.«140601_j33998961115547_1_alg».proof.Proof.LibDotRow
import proofs.«140601_j33998961115547_1_alg».proof.Proof.LibDotRowT
import Idealize.ShloMosaic.Lib.Pipeline.Value
import Idealize.ShloMosaic.Lib.ValueIdx
import Idealize.ShloMosaic.PureOps.Ideal.Laws
import Idealize.ShloMosaic.Lib.IdealHost

noncomputable section

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The decoder as the reference spells it -/

/-- The reference's decoder of the embedding array h: 1 / (1 + exp (-(h · hᵀ))), the transposed copy of h contracted on
    its first axis. -/
def decodeRef (h : S16384x256.Idx → EReal) : S16384x16384.Idx → EReal :=
  Host.divf (F := Ideal) (φ := .f32)
    (broadcastInDim Cert.ReferenceIdeal.S16384x16384 ![] Cert.ReferenceIdeal.Facts₀.bcast_S_S16384x16384 (constant (F := Ideal) Cert.ReferenceIdeal.S_ .f32 0x3F800000#32))
    (addf (F := Ideal) (φ := .f32)
      (broadcastInDim Cert.ReferenceIdeal.S16384x16384 ![] Cert.ReferenceIdeal.Facts₀.bcast_S_S16384x16384 (constant (F := Ideal) Cert.ReferenceIdeal.S_ .f32 0x3F800000#32))
      (Host.exp (F := Ideal) (φ := .f32) (Host.negf (F := Ideal) (φ := .f32)
        (Host.dotGeneral (F := Ideal) (φ₁ := .f32) (φ₂ := .f32) Cert.ReferenceIdeal.dot_S16384x256_S256x16384_S16384x16384_1_0_0_1_n_n none h
          (transpose Cert.ReferenceIdeal.S256x16384 [1, 0] h Cert.ReferenceIdeal.Facts₀.transposes_S16384x256_S256x16384_1_0)))))

theorem rdot2_lhs0 (j : Cert.ReferenceIdeal.S16384x16384.Idx) (k : Cert.ReferenceIdeal.dot_S16384x256_S256x16384_S16384x16384_1_0_0_1_n_n.contr.Idx) :
    (Cert.ReferenceIdeal.dot_S16384x256_S256x16384_S16384x16384_1_0_0_1_n_n.lhsIdx j k 0).val = (j 0).val := by
  unfold DotDims.lhsIdx
  rw [dif_neg (show ¬(0 : Fin Cert.ReferenceIdeal.S16384x256.rank) ∈ Cert.ReferenceIdeal.dot_S16384x256_S256x16384_S16384x16384_1_0_0_1_n_n.lhsBatch by decide), dif_pos (show (0 : Fin Cert.ReferenceIdeal.S16384x256.rank) ∈ Cert.ReferenceIdeal.dot_S16384x256_S256x16384_S16384x16384_1_0_0_1_n_n.lhsNonContracting by decide)]
  rfl

theorem rdot2_rhs1 (j : Cert.ReferenceIdeal.S16384x16384.Idx) (k : Cert.ReferenceIdeal.dot_S16384x256_S256x16384_S16384x16384_1_0_0_1_n_n.contr.Idx) :
    (Cert.ReferenceIdeal.dot_S16384x256_S256x16384_S16384x16384_1_0_0_1_n_n.rhsIdx j k 1).val = (j 1).val := by
  unfold DotDims.rhsIdx
  rw [dif_neg (show ¬(1 : Fin Cert.ReferenceIdeal.S256x16384.rank) ∈ Cert.ReferenceIdeal.dot_S16384x256_S256x16384_S16384x16384_1_0_0_1_n_n.rhsBatch by decide), dif_pos (show (1 : Fin Cert.ReferenceIdeal.S256x16384.rank) ∈ Cert.ReferenceIdeal.dot_S16384x256_S256x16384_S16384x16384_1_0_0_1_n_n.rhsNonContracting by decide)]
  rfl

/-- The reference's decoder at (r, s): the logistic function of the inner product of rows r and s of h. -/
theorem decodeRef_apply (h : S16384x256.Idx → EReal) (r s : Fin 16384) :
    decodeRef h (ix2 r s) = Ideal.logistic (∑ k : Fin 256, h (ix2 r k) * h (ix2 s k)) := by
  unfold decodeRef
  rw [hostDivf_apply, addf_apply, broadcastInDim_scalar_apply, constant_apply, Ideal.ofBits_one_f32]
  show Ideal.div 1 (1 + Ideal.exp (-(FloatOps.dotGeneral (F := Ideal) (φ₁ := .f32) (φ₂ := .f32) Cert.ReferenceIdeal.dot_S16384x256_S256x16384_S16384x16384_1_0_0_1_n_n none .single h
    (transpose Cert.ReferenceIdeal.S256x16384 [1, 0] h Cert.ReferenceIdeal.Facts₀.transposes_S16384x256_S256x16384_1_0) (ix2 r s)))) = _
  rw [Ideal.dotGeneral_apply, DotRow.sum_contr Cert.ReferenceIdeal.dot_S16384x256_S256x16384_S16384x16384_1_0_0_1_n_n rfl rfl rfl rfl rdot2_lhs0 rdot2_rhs1 h _ r s]
  unfold Ideal.logistic
  refine congrArg (fun x => Ideal.div 1 (1 + Ideal.exp (-x))) (Finset.sum_congr rfl fun k _ => ?_)
  rw [transpose_apply [1, 0] h Cert.ReferenceIdeal.Facts₀.transposes_S16384x256_S256x16384_1_0 (ix2 k s) (ix2 s k)
    (fun b => by match b with | ⟨0, _⟩ => rfl | ⟨1, _⟩ => rfl)]

/-! ## The kernel's block at an index -/

theorem kdot2_lhs0 (j : S1024x1024.Idx) (k : dot_S1024x256_S1024x256_S1024x1024_1_1_0_0_n_n.contr.Idx) :
    (dot_S1024x256_S1024x256_S1024x1024_1_1_0_0_n_n.lhsIdx j k 0).val = (j 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl

theorem kdot2_rhs0 (j : S1024x1024.Idx) (k : dot_S1024x256_S1024x256_S1024x1024_1_1_0_0_n_n.contr.Idx) :
    (dot_S1024x256_S1024x256_S1024x1024_1_1_0_0_n_n.rhsIdx j k 0).val = (j 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl

/-- The stored block at (p, q): the logistic function of the inner product of row p of the first block and row q of the second. -/
theorem out2_apply (x0 x1 : Vec Ideal S1024x256 .f32) (p q : Fin 1024) :
    Hand.out2_2 (F := Ideal) x0 x1 (ix2 p q) = Ideal.logistic (∑ k : Fin 256, x0 (ix2 p k) * x1 (ix2 q k)) := by
  unfold Hand.out2_2 k2_pay1
  rw [shapeCast_self, shapeCast_self]
  show Ideal.logistic (FloatOps.matmul (F := Ideal) dot_S1024x256_S1024x256_S1024x1024_1_1_0_0_n_n none (truncf .bf16 x0 bitsLt_bf16_f32) (truncf .bf16 x1 bitsLt_bf16_f32) (constant S1024x1024 .f32 0x00000000#32) (ix2 p q)) = _
  rw [Ideal.matmul_constant_zero_apply]
  exact congrArg Ideal.logistic (DotRowT.sum_contr dot_S1024x256_S1024x256_S1024x1024_1_1_0_0_n_n rfl rfl rfl rfl kdot2_lhs0 kdot2_rhs0 x0 x1 p q)

/-- A block whose operands are rows i*1024 … and rows j*1024 … of h stores block (i, j) of the reference's decoder of h. -/
theorem block2 (h : S16384x256.Idx → EReal) (x0 x1 : Vec Ideal S1024x256 .f32) (i j : Nat) (hi : i < 16) (hj : j < 16)
    (h0 : ∀ (p : Fin 1024) (k : Fin 256), x0 (ix2 p k) = h (ix2 (⟨i * 1024 + p.val, by have := p.isLt; omega⟩ : Fin 16384) k))
    (h1 : ∀ (q : Fin 1024) (k : Fin 256), x1 (ix2 q k) = h (ix2 (⟨j * 1024 + q.val, by have := q.isLt; omega⟩ : Fin 16384) k)) (p q : Fin 1024) :
    Hand.out2_2 (F := Ideal) x0 x1 (ix2 p q)
      = decodeRef h (ix2 (⟨i * 1024 + p.val, by have := p.isLt; omega⟩ : Fin 16384) (⟨j * 1024 + q.val, by have := q.isLt; omega⟩ : Fin 16384)) := by
  rw [out2_apply, decodeRef_apply]
  exact congrArg Ideal.logistic (Finset.sum_congr rfl fun k _ => by rw [h0, h1])

/-! ## From blocks to the array -/

theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) = t.val / 16
    ∧ win2_2.index t (1 : Fin 2) = t.val % 16 :=
  (by decide +kernel : ∀ t : Fin grid2.N, _)

theorem flushed2_eq (c : Dev nD) (t : Fin cfg2.N) :
    (Hand.dat2 V c).flushed 2 t = ((cfg2.win 2).blk t).view.read (Elt Ideal) (decodeRef (V c main_v107)) := by
  show (cfg2.win 2).cut (grid2.coords t) ((Hand.dat2 V c).after 2 t) = _
  rw [Hand.after2_2]
  obtain ⟨e0, e1, e2, e3, e4, e5⟩ := idx_facts2 t
  have ht : t.val < 256 := by have h := t.isLt; have hN : cfg2.N = 256 := N_2; omega
  funext j
  obtain ⟨p, q, rfl⟩ : ∃ (p q : Fin 1024), j = ix2 p q := ⟨j 0, j 1, eq_ix2 j⟩
  refine (block2 (V c main_v107) (Hand.iblk2 V c 0 t) (Hand.iblk2 V c 1 t) (t.val / 16) (t.val % 16) (by omega) (by omega) ?_ ?_ p q).trans ?_
  · intro p k
    show V c main_v107 (((cfg2.win 0).blk t).view.emb (ix2 p k)) = V c main_v107 _
    refine congrArg _ (funext fun a => Fin.ext ?_)
    match a with
    | ⟨0, _⟩ => show win2_0.index t (0 : Fin 2) * 1024 + 1 * p.val = t.val / 16 * 1024 + p.val; omega
    | ⟨1, _⟩ => show win2_0.index t (1 : Fin 2) * 256 + 1 * k.val = k.val; omega
  · intro q k
    show V c main_v107 (((cfg2.win 1).blk t).view.emb (ix2 q k)) = V c main_v107 _
    refine congrArg _ (funext fun a => Fin.ext ?_)
    match a with
    | ⟨0, _⟩ => show win2_1.index t (0 : Fin 2) * 1024 + 1 * q.val = t.val % 16 * 1024 + q.val; omega
    | ⟨1, _⟩ => show win2_1.index t (1 : Fin 2) * 256 + 1 * k.val = k.val; omega
  · show decodeRef (V c main_v107) _ = decodeRef (V c main_v107) (((cfg2.win 2).blk t).view.emb (ix2 p q))
    refine congrArg _ (funext fun a => Fin.ext ?_)
    match a with
    | ⟨0, _⟩ => show t.val / 16 * 1024 + p.val = win2_2.index t (0 : Fin 2) * 1024 + 1 * p.val; omega
    | ⟨1, _⟩ => show t.val % 16 * 1024 + q.val = win2_2.index t (1 : Fin 2) * 1024 + 1 * q.val; omega

/-- An index of the array is in point t's block iff each coordinate is in the block's range on its axis. -/
theorem mem_blk2 (t : Fin cfg2.N) (i : S16384x16384.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v108).slice (win2_2.rect t)).set ↔ _
  rw [View.set_slice_whole, Rect.mem_set_unit]
  exact Iff.rfl

/-- Entry (r, s) lies in the block of point (r / 1024) * 16 + s / 1024. -/
theorem cover2 (i : S16384x16384.Idx) : ∃ t : Fin cfg2.N, (cfg2.win 2).flush t = true ∧ i ∈ ((cfg2.win 2).blk t).view.set := by
  have hi0 : (i 0).val < 16384 := (i 0).isLt
  have hi1 : (i 1).val < 16384 := (i 1).isLt
  have hN : cfg2.N = 256 := N_2
  let t : Fin cfg2.N := ⟨(i 0).val / 1024 * 16 + (i 1).val / 1024, by omega⟩
  obtain ⟨e0, e1, e2, e3, e4, e5⟩ := idx_facts2 t
  have e4' : win2_2.index t (0 : Fin 2) = ((i 0).val / 1024 * 16 + (i 1).val / 1024) / 16 := e4
  have e5' : win2_2.index t (1 : Fin 2) = ((i 0).val / 1024 * 16 + (i 1).val / 1024) % 16 := e5
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The array region 2 leaves is the reference's decoder of the embedding array. -/
theorem final2 (c : Dev nD) :
    (Hand.dat2 (F := Ideal) V c).arrAt 2 cfg2.N = decodeRef (V c main_v107) :=
  (Hand.dat2 V c).arrAt_eq_of_cover 2 (decodeRef (V c main_v107)) (fun t _ => flushed2_eq V c t) cover2

end Cert.KernelIdeal.Val

end
-- ==== Proof.BridgeLayer.lean ====
/-
  One graph-attention layer as a function of its input.
  The layer takes a node-feature matrix `h` (16384 rows), two attention vectors `a` and `b` (columns), the edge weights
  `w` (524288 edges) and the edges' row and column node indices `r`, `s`.
  For edge e:  logit e = (h a)[r e] + (h b)[s e];  gate e = exp (1 / (1 + exp (-(w e * logit e))));
  den i = sum of gate e over the edges with r e = i;  alpha e = gate e / den (r e);
  and the layer's output row i is the sum over the edges e with r e = i of alpha e times row (s e) of h.
  Indices are normalised first (a negative index counts from the end). Both programs apply these same operations, the first
  layer at width 512 and the second at width 256; nothing below opens a gather, a scatter, an exponential or a quotient.
-/
import proofs.«140601_j33998961115547_1_alg».proof.Proof.Gen.ReferenceIdeal.Read

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

abbrev EdgeI : Type := (⟨S524288, .i32⟩ : BufTy).Contents (Elt F)
abbrev EdgeF : Type := (⟨S524288, .f32⟩ : BufTy).Contents (Elt F)
abbrev NodeF : Type := (⟨S16384, .f32⟩ : BufTy).Contents (Elt F)

/-- The edge index vector with negative entries wrapped around (`i < 0 ? i + 16384 : i`), as a column. -/
def wrap (r : EdgeI (F := F)) : (⟨S524288x1, .i32⟩ : BufTy).Contents (Elt F) :=
  broadcastInDim S524288x1 ![0] bcast_S524288_S524288x1_0
    (select (cmpi .slt r (broadcastInDim S524288 ![] bcast_S_S524288 (constantI S_ 32 0#32)))
      (addi r (broadcastInDim S524288 ![] bcast_S_S524288 (constantI S_ 32 16384#32))) r)

/-- The per-node score vector read at each edge's endpoint. -/
def atEdge (x : NodeF (F := F)) (r : EdgeI (F := F)) : EdgeF (F := F) :=
  Host.gather gather_S16384_S524288x1_S524288_n_0_n_n_0_1_1 x (wrap r)

/-- `exp (1 / (1 + exp (-(w * l))))`, edge by edge. -/
def gate (w l : EdgeF (F := F)) : EdgeF (F := F) :=
  Host.exp (Host.divf (broadcastInDim S524288 ![] bcast_S_S524288 (constant (F := F) S_ .f32 0x3F800000#32))
    (addf (broadcastInDim S524288 ![] bcast_S_S524288 (constant (F := F) S_ .f32 0x3F800000#32))
      (Host.exp (Host.negf (mulf w l)))))

/-- Each node's sum of the gates of the edges whose row index it is. -/
def den (r : EdgeI (F := F)) (g : EdgeF (F := F)) : NodeF (F := F) :=
  Host.scatterAdd scatter_S16384_S524288x1_S524288_n_0_0_1
    (broadcastInDim S16384 ![] bcast_S_S16384 (constant (F := F) S_ .f32 0x00000000#32))
    (broadcastInDim S524288x1 ![0] bcast_S524288_S524288x1_0 r) g

/-- The normalised attention weight of each edge, as a column. -/
def alpha (r : EdgeI (F := F)) (g : EdgeF (F := F)) : (⟨S524288x1, .f32⟩ : BufTy).Contents (Elt F) :=
  broadcastInDim S524288x1 ![0] bcast_S524288_S524288x1_0 (Host.divf g (atEdge (den r g) r))

/-- The edge weights of a layer from the two score vectors. -/
def edgeAlpha (p q : NodeF (F := F)) (w : EdgeF (F := F)) (r s : EdgeI (F := F)) :
    (⟨S524288x1, .f32⟩ : BufTy).Contents (Elt F) :=
  alpha r (gate w (addf (atEdge p r) (atEdge q s)))

/-- The layer at width 512. -/
def layer512 (h : (⟨S16384x512, .f32⟩ : BufTy).Contents (Elt F)) (a b : (⟨S512x1, .f32⟩ : BufTy).Contents (Elt F))
    (w : EdgeF (F := F)) (r s : EdgeI (F := F)) : (⟨S16384x512, .f32⟩ : BufTy).Contents (Elt F) :=
  Host.scatterAdd scatter_S16384x512_S524288x1_S524288x512_1_0_0_1
    (broadcastInDim S16384x512 ![] bcast_S_S16384x512 (constant (F := F) S_ .f32 0x00000000#32))
    (broadcastInDim S524288x1 ![0] bcast_S524288_S524288x1_0 r)
    (mulf (broadcastInDim S524288x512 ![0, 1] bcast_S524288x1_S524288x512_0_1
        (edgeAlpha (shapeCast _ (Host.dotGeneral dot_S16384x512_S512x1_S16384x1_1_0_0_1_n_n none h a) shapeCasts_S16384x1_S16384)
          (shapeCast _ (Host.dotGeneral dot_S16384x512_S512x1_S16384x1_1_0_0_1_n_n none h b) shapeCasts_S16384x1_S16384) w r s))
      (Host.gather gather_S16384x512_S524288x1_S524288x512_1_0_n_n_0_1_1512 h (wrap s)))

/-- The layer at width 256. -/
def layer256 (h : (⟨S16384x256, .f32⟩ : BufTy).Contents (Elt F)) (a b : (⟨S256x1, .f32⟩ : BufTy).Contents (Elt F))
    (w : EdgeF (F := F)) (r s : EdgeI (F := F)) : (⟨S16384x256, .f32⟩ : BufTy).Contents (Elt F) :=
  Host.scatterAdd scatter_S16384x256_S524288x1_S524288x256_1_0_0_1
    (broadcastInDim S16384x256 ![] bcast_S_S16384x256 (constant (F := F) S_ .f32 0x00000000#32))
    (broadcastInDim S524288x1 ![0] bcast_S524288_S524288x1_0 r)
    (mulf (broadcastInDim S524288x256 ![0, 1] bcast_S524288x1_S524288x256_0_1
        (edgeAlpha (shapeCast _ (Host.dotGeneral dot_S16384x256_S256x1_S16384x1_1_0_0_1_n_n none h a) shapeCasts_S16384x1_S16384)
          (shapeCast _ (Host.dotGeneral dot_S16384x256_S256x1_S16384x1_1_0_0_1_n_n none h b) shapeCasts_S16384x1_S16384) w r s))
      (Host.gather gather_S16384x256_S524288x1_S524288x256_1_0_n_n_0_1_1256 h (wrap s)))

/-- The decoder: the logistic function of the Gram matrix of the rows of `h`. -/
def decode (h : (⟨S16384x256, .f32⟩ : BufTy).Contents (Elt F)) : (⟨S16384x16384, .f32⟩ : BufTy).Contents (Elt F) :=
  Host.divf (broadcastInDim S16384x16384 ![] bcast_S_S16384x16384 (constant (F := F) S_ .f32 0x3F800000#32))
    (addf (broadcastInDim S16384x16384 ![] bcast_S_S16384x16384 (constant (F := F) S_ .f32 0x3F800000#32))
      (Host.exp (Host.negf (Host.dotGeneral dot_S16384x256_S256x16384_S16384x16384_1_0_0_1_n_n none h
        (transpose S256x16384 [1, 0] h transposes_S16384x256_S256x16384_1_0)))))

/-- The edges' row indices: row 0 of the index pair array. -/
def rowIdx (e : (⟨S2x524288, .i32⟩ : BufTy).Contents (Elt F)) : EdgeI (F := F) :=
  shapeCast _ (extractStridedSlice S1x524288 ![0, 0] e slices_S2x524288_S1x524288_0_0) shapeCasts_S1x524288_S524288

/-- The edges' column indices: row 1 of the index pair array. -/
def colIdx (e : (⟨S2x524288, .i32⟩ : BufTy).Contents (Elt F)) : EdgeI (F := F) :=
  shapeCast _ (extractStridedSlice S1x524288 ![1, 0] e slices_S2x524288_S1x524288_1_0) shapeCasts_S1x524288_S524288

/-- The whole model as one function of the nine arguments. -/
def model (x0 : (⟨S16384x512, .f32⟩ : BufTy).Contents (Elt F)) (x1 : (⟨S512x512, .f32⟩ : BufTy).Contents (Elt F))
    (x2 : (⟨S512x256, .f32⟩ : BufTy).Contents (Elt F)) (x3 x4 : (⟨S512x1, .f32⟩ : BufTy).Contents (Elt F))
    (x5 x6 : (⟨S256x1, .f32⟩ : BufTy).Contents (Elt F)) (x7 : EdgeF (F := F))
    (x8 : (⟨S2x524288, .i32⟩ : BufTy).Contents (Elt F)) : (⟨S16384x16384, .f32⟩ : BufTy).Contents (Elt F) :=
  decode (layer256
    (Host.dotGeneral dot_S16384x512_S512x256_S16384x256_1_0_0_1_n_n none
      (layer512 (Host.dotGeneral dot_S16384x512_S512x512_S16384x512_1_0_0_1_n_n none x0 x1) x3 x4 x7 (rowIdx x8) (colIdx x8)) x2)
    x5 x6 x7 (rowIdx x8) (colIdx x8))

end Cert.Bridge

end
-- ==== Proof.BridgeHost.lean ====
/-
  The kernel program's host stretches are the layer functions.
  Between its three kernel regions the kernel program runs the same host operations as the reference. Read from any
  contents `W` of the buffers, the first stretch leaves the edges' row and column indices, the second stretch leaves the
  width-512 attention layer of whatever `W` holds as the first projection, and the third the width-256 layer of whatever
  `W` holds as the second projection. The two programs' shape records have the same fields, so the operations' composed
  terms agree with Proof/BridgeLayer.lean's functions by unfolding names only.
-/
import proofs.«140601_j33998961115547_1_alg».proof.Proof.KIData
import proofs.«140601_j33998961115547_1_alg».proof.Proof.BridgeLayer

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]

theorem host0_v1 (W : Valuation τ sig (Elt F)) :
    StableHlo.after hostOps0 W (Proc.devRef .tc main_v1) = rowIdx (F := F) (W main_arg8) := by
  after_results; rfl

theorem host0_v3 (W : Valuation τ sig (Elt F)) :
    StableHlo.after hostOps0 W (Proc.devRef .tc main_v3) = colIdx (F := F) (W main_arg8) := by
  after_results; rfl

set_option maxRecDepth 8192 in
set_option maxHeartbeats 4000000 in
theorem host1_v55 (W : Valuation τ sig (Elt F)) :
    StableHlo.after hostOps1 W (Proc.devRef .tc main_v55)
      = layer512 (F := F) (W main_v4) (W main_arg3) (W main_arg4) (W main_arg7) (W main_v1) (W main_v3) := by
  after_results_simp; rfl

set_option maxRecDepth 8192 in
set_option maxHeartbeats 4000000 in
theorem host2_v107 (W : Valuation τ sig (Elt F)) :
    StableHlo.after hostOps2 W (Proc.devRef .tc main_v107)
      = layer256 (F := F) (W main_v56) (W main_arg5) (W main_arg6) (W main_arg7) (W main_v1) (W main_v3) := by
  after_results_simp; rfl

end Cert.Bridge

end
-- ==== Proof.BridgeK.lean ====
/-
  What the kernel program leaves in its result array is the model function of its nine arguments.
  Read down the program: the decoder region leaves the decoder of what the third host stretch left as the width-256
  layer's output; that is the layer of what the second region left (the second projection of the width-512 layer's
  output), and so on down to the launch contents of the arguments. Arguments and the two index vectors pass through the
  later items unchanged, since no item writes them.
  The three regions' results enter as hypotheses: each region leaves the matrix product (or the decoder) of the
  contents it is entered from.
-/
import proofs.«140601_j33998961115547_1_alg».proof.Proof.KIData
import proofs.«140601_j33998961115547_1_alg».proof.Proof.Gen.KernelIdeal.Regions
import proofs.«140601_j33998961115547_1_alg».proof.Proof.BridgeHost

noncomputable section

namespace Cert.Bridge

open Idealize.ShloMosaic Idealize.ShloMosaic.TcCoe Idealize.SL.Sem Idealize.ShloMosaic.StableHlo
open Cert.KernelIdeal Cert.KernelIdeal.Gen Cert.KernelIdeal.Hand

set_option maxRecDepth 2048

section Reads
variable {F : FTy → Type} [FloatOps F]
variable (m : (ℓ : Loc nD τ sig) → Buf (Elt F) ℓ) (c : Dev nD)

theorem U1_of (r : Ref sig .tc) (h : r ∉ hostOps0_W) : U1 m c r = U0 m c r :=
  StableHlo.after_of_writes_sub hostOps0 _ hostOps0_writes h
theorem U2_of (r : Ref sig .tc) (h : r ≠ main_v4) : U2 m c r = U1 m c r :=
  Function.update_of_ne (StableHlo.devRef_ne_of_ne h) _ _
theorem U3_of (r : Ref sig .tc) (h : r ∉ hostOps1_W) : U3 m c r = U2 m c r :=
  StableHlo.after_of_writes_sub hostOps1 _ hostOps1_writes h
theorem U4_of (r : Ref sig .tc) (h : r ≠ main_v56) : U4 m c r = U3 m c r :=
  Function.update_of_ne (StableHlo.devRef_ne_of_ne h) _ _

theorem U2_v4 : U2 m c main_v4 = o2 m c := Function.update_self _ _ _
theorem U4_v56 : U4 m c main_v56 = o4 m c := Function.update_self _ _ _

/-- A buffer that neither of the first two host stretches nor the first two regions write holds its launch contents
    when the third stretch starts. -/
theorem U4_launch (r : Ref sig .tc) (h0 : r ∉ hostOps0_W) (h1 : r ≠ main_v4) (h2 : r ∉ hostOps1_W) (h3 : r ≠ main_v56) :
    U4 m c r = U0 m c r :=
  (U4_of m c r h3).trans <| (U3_of m c r h2).trans <| (U2_of m c r h1).trans <| U1_of m c r h0

theorem U2_launch (r : Ref sig .tc) (h0 : r ∉ hostOps0_W) (h1 : r ≠ main_v4) : U2 m c r = U0 m c r :=
  (U2_of m c r h1).trans <| U1_of m c r h0

theorem U1_v1 : U1 m c main_v1 = rowIdx (F := F) (m ((c.tc : Thread nD τ).loc main_arg8)) := host0_v1 (U0 m c)
theorem U1_v3 : U1 m c main_v3 = colIdx (F := F) (m ((c.tc : Thread nD τ).loc main_arg8)) := host0_v3 (U0 m c)

theorem U2_v1 : U2 m c main_v1 = rowIdx (F := F) (m ((c.tc : Thread nD τ).loc main_arg8)) :=
  (U2_of m c main_v1 (by decide)).trans (U1_v1 m c)
theorem U2_v3 : U2 m c main_v3 = colIdx (F := F) (m ((c.tc : Thread nD τ).loc main_arg8)) :=
  (U2_of m c main_v3 (by decide)).trans (U1_v3 m c)
theorem U4_v1 : U4 m c main_v1 = rowIdx (F := F) (m ((c.tc : Thread nD τ).loc main_arg8)) :=
  (U4_of m c main_v1 (by decide)).trans <| (U3_of m c main_v1 (by decide)).trans (U2_v1 m c)
theorem U4_v3 : U4 m c main_v3 = colIdx (F := F) (m ((c.tc : Thread nD τ).loc main_arg8)) :=
  (U4_of m c main_v3 (by decide)).trans <| (U3_of m c main_v3 (by decide)).trans (U2_v3 m c)

end Reads

section Chain
variable (m : (ℓ : Loc nD τ sig) → Buf (Elt Ideal) ℓ) (c : Dev nD)

/-- Region 0 leaves the first projection of the launch contents. -/
theorem o2_eq
    (final0 : ∀ (V : (c : Dev nD) → (b : Ref sig .tc) → Buf (Elt Ideal) ((c : Thread nD τ).loc b)) (c : Dev nD), (Hand.dat0 V c).arrAt 2 cfg0.N
      = Host.dotGeneral (F := Ideal) (φ₁ := .f32) (φ₂ := .f32) Cert.ReferenceIdeal.dot_S16384x512_S512x512_S16384x512_1_0_0_1_n_n none (V c main_arg0) (V c main_arg1)) :
    o2 m c = Host.dotGeneral (F := Ideal) (φ₁ := .f32) (φ₂ := .f32) Cert.ReferenceIdeal.dot_S16384x512_S512x512_S16384x512_1_0_0_1_n_n none
      (m ((c.tc : Thread nD τ).loc main_arg0)) (m ((c.tc : Thread nD τ).loc main_arg1)) := by
  have e := final0 (T1 m) c
  rw [show T1 m c main_arg0 = m ((c.tc : Thread nD τ).loc main_arg0) from U1_of m c main_arg0 (by decide),
    show T1 m c main_arg1 = m ((c.tc : Thread nD τ).loc main_arg1) from U1_of m c main_arg1 (by decide)] at e
  exact e

/-- The second host stretch leaves the width-512 layer of region 0's result. -/
theorem U3_v55 :
    U3 m c main_v55 = layer512 (F := Ideal) (o2 m c) (m ((c.tc : Thread nD τ).loc main_arg3)) (m ((c.tc : Thread nD τ).loc main_arg4))
      (m ((c.tc : Thread nD τ).loc main_arg7)) (rowIdx (m ((c.tc : Thread nD τ).loc main_arg8))) (colIdx (m ((c.tc : Thread nD τ).loc main_arg8))) := by
  have e := host1_v55 (U2 m c)
  rw [U2_v4, U2_v1, U2_v3,
    show U2 m c main_arg3 = m ((c.tc : Thread nD τ).loc main_arg3) from U2_launch m c main_arg3 (by decide) (by decide),
    show U2 m c main_arg4 = m ((c.tc : Thread nD τ).loc main_arg4) from U2_launch m c main_arg4 (by decide) (by decide),
    show U2 m c main_arg7 = m ((c.tc : Thread nD τ).loc main_arg7) from U2_launch m c main_arg7 (by decide) (by decide)] at e
  exact e

/-- Region 1 leaves the second projection of the width-512 layer's output. -/
theorem o4_eq
    (final1 : ∀ (V : (c : Dev nD) → (b : Ref sig .tc) → Buf (Elt Ideal) ((c : Thread nD τ).loc b)) (c : Dev nD), (Hand.dat1 V c).arrAt 2 cfg1.N
      = Host.dotGeneral (F := Ideal) (φ₁ := .f32) (φ₂ := .f32) Cert.ReferenceIdeal.dot_S16384x512_S512x256_S16384x256_1_0_0_1_n_n none (V c main_v55) (V c main_arg2)) :
    o4 m c = Host.dotGeneral (F := Ideal) (φ₁ := .f32) (φ₂ := .f32) Cert.ReferenceIdeal.dot_S16384x512_S512x256_S16384x256_1_0_0_1_n_n none
      (U3 m c main_v55) (m ((c.tc : Thread nD τ).loc main_arg2)) := by
  have e := final1 (T3 m) c
  rw [show T3 m c main_arg2 = m ((c.tc : Thread nD τ).loc main_arg2) from
    (U3_of m c main_arg2 (by decide)).trans (U2_launch m c main_arg2 (by decide) (by decide))] at e
  exact e

/-- The third host stretch leaves the width-256 layer of region 1's result. -/
theorem U5_v107 :
    U5 m c main_v107 = layer256 (F := Ideal) (o4 m c) (m ((c.tc : Thread nD τ).loc main_arg5)) (m ((c.tc : Thread nD τ).loc main_arg6))
      (m ((c.tc : Thread nD τ).loc main_arg7)) (rowIdx (m ((c.tc : Thread nD τ).loc main_arg8))) (colIdx (m ((c.tc : Thread nD τ).loc main_arg8))) := by
  have e := host2_v107 (U4 m c)
  rw [U4_v56, U4_v1, U4_v3,
    show U4 m c main_arg5 = m ((c.tc : Thread nD τ).loc main_arg5) from U4_launch m c main_arg5 (by decide) (by decide) (by decide) (by decide),
    show U4 m c main_arg6 = m ((c.tc : Thread nD τ).loc main_arg6) from U4_launch m c main_arg6 (by decide) (by decide) (by decide) (by decide),
    show U4 m c main_arg7 = m ((c.tc : Thread nD τ).loc main_arg7) from U4_launch m c main_arg7 (by decide) (by decide) (by decide) (by decide)] at e
  exact e

/-- The kernel program's result array ends at the model function of the nine launch arguments. -/
theorem o6_model
    (final0 : ∀ (V : (c : Dev nD) → (b : Ref sig .tc) → Buf (Elt Ideal) ((c : Thread nD τ).loc b)) (c : Dev nD), (Hand.dat0 V c).arrAt 2 cfg0.N
      = Host.dotGeneral (F := Ideal) (φ₁ := .f32) (φ₂ := .f32) Cert.ReferenceIdeal.dot_S16384x512_S512x512_S16384x512_1_0_0_1_n_n none (V c main_arg0) (V c main_arg1))
    (final1 : ∀ (V : (c : Dev nD) → (b : Ref sig .tc) → Buf (Elt Ideal) ((c : Thread nD τ).loc b)) (c : Dev nD), (Hand.dat1 V c).arrAt 2 cfg1.N
      = Host.dotGeneral (F := Ideal) (φ₁ := .f32) (φ₂ := .f32) Cert.ReferenceIdeal.dot_S16384x512_S512x256_S16384x256_1_0_0_1_n_n none (V c main_v55) (V c main_arg2))
    (final2 : ∀ (V : (c : Dev nD) → (b : Ref sig .tc) → Buf (Elt Ideal) ((c : Thread nD τ).loc b)) (c : Dev nD), (Hand.dat2 V c).arrAt 2 cfg2.N = decode (F := Ideal) (V c main_v107)) :
    o6 m c = model (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have e : o6 m c = decode (F := Ideal) (U5 m c main_v107) := final2 (T5 m) c
  rw [e, U5_v107, o4_eq m c final1, U3_v55, o2_eq m c final0]
  rfl

end Chain

end Cert.Bridge

end
-- ==== Proof.BridgeRef.lean ====
/-
  The reference program's stages are the layer functions.
  The reference computes: the first projection, the width-512 attention layer of it, the second projection, the width-256
  attention layer, and the decoder. Each stretch of its operations is, by unfolding the names of its stages only, the
  corresponding function of Proof/BridgeLayer.lean applied to the stage before it.
-/
import proofs.«140601_j33998961115547_1_alg».proof.Proof.BridgeLayer

noncomputable section

namespace Cert.Bridge

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem ref_v1 (x8 : (⟨S2x524288, .i32⟩ : BufTy).Contents (Elt F)) : val_main_v1 (F := F) x8 = rowIdx x8 := rfl
theorem ref_v3 (x8 : (⟨S2x524288, .i32⟩ : BufTy).Contents (Elt F)) : val_main_v3 (F := F) x8 = colIdx x8 := rfl

theorem ref_v4 (x0 : (⟨S16384x512, .f32⟩ : BufTy).Contents (Elt F)) (x1 : (⟨S512x512, .f32⟩ : BufTy).Contents (Elt F)) :
    val_main_v4 (F := F) x0 x1 = Host.dotGeneral dot_S16384x512_S512x512_S16384x512_1_0_0_1_n_n none x0 x1 := rfl

/-- Operations 5 to 55 of the reference are the width-512 layer of the first projection. -/
theorem ref_v55 (x0 : (⟨S16384x512, .f32⟩ : BufTy).Contents (Elt F)) (x1 : (⟨S512x512, .f32⟩ : BufTy).Contents (Elt F)) (x3 x4 : (⟨S512x1, .f32⟩ : BufTy).Contents (Elt F)) (x7 : (⟨S524288, .f32⟩ : BufTy).Contents (Elt F)) (x8 : (⟨S2x524288, .i32⟩ : BufTy).Contents (Elt F)) :
    val_main_v55 (F := F) x0 x1 x3 x4 x7 x8
      = layer512 (val_main_v4 (F := F) x0 x1) x3 x4 x7 (rowIdx x8) (colIdx x8) := rfl

theorem ref_v56 (x0 : (⟨S16384x512, .f32⟩ : BufTy).Contents (Elt F)) (x1 : (⟨S512x512, .f32⟩ : BufTy).Contents (Elt F)) (x2 : (⟨S512x256, .f32⟩ : BufTy).Contents (Elt F)) (x3 x4 : (⟨S512x1, .f32⟩ : BufTy).Contents (Elt F)) (x7 : (⟨S524288, .f32⟩ : BufTy).Contents (Elt F)) (x8 : (⟨S2x524288, .i32⟩ : BufTy).Contents (Elt F)) :
    val_main_v56 (F := F) x0 x1 x2 x3 x4 x7 x8
      = Host.dotGeneral dot_S16384x512_S512x256_S16384x256_1_0_0_1_n_n none (val_main_v55 (F := F) x0 x1 x3 x4 x7 x8) x2 := rfl

/-- Operations 57 to 107 of the reference are the width-256 layer of the second projection. -/
theorem ref_v107 (x0 : (⟨S16384x512, .f32⟩ : BufTy).Contents (Elt F)) (x1 : (⟨S512x512, .f32⟩ : BufTy).Contents (Elt F)) (x2 : (⟨S512x256, .f32⟩ : BufTy).Contents (Elt F)) (x3 x4 : (⟨S512x1, .f32⟩ : BufTy).Contents (Elt F)) (x5 x6 : (⟨S256x1, .f32⟩ : BufTy).Contents (Elt F)) (x7 : (⟨S524288, .f32⟩ : BufTy).Contents (Elt F)) (x8 : (⟨S2x524288, .i32⟩ : BufTy).Contents (Elt F)) :
    val_main_v107 (F := F) x0 x1 x2 x3 x4 x5 x6 x7 x8
      = layer256 (val_main_v56 (F := F) x0 x1 x2 x3 x4 x7 x8) x5 x6 x7 (rowIdx x8) (colIdx x8) := rfl

/-- The reference's last eight operations are the decoder. -/
theorem ref_v115 (x0 : (⟨S16384x512, .f32⟩ : BufTy).Contents (Elt F)) (x1 : (⟨S512x512, .f32⟩ : BufTy).Contents (Elt F)) (x2 : (⟨S512x256, .f32⟩ : BufTy).Contents (Elt F)) (x3 x4 : (⟨S512x1, .f32⟩ : BufTy).Contents (Elt F)) (x5 x6 : (⟨S256x1, .f32⟩ : BufTy).Contents (Elt F)) (x7 : (⟨S524288, .f32⟩ : BufTy).Contents (Elt F)) (x8 : (⟨S2x524288, .i32⟩ : BufTy).Contents (Elt F)) :
    val_main_v115 (F := F) x0 x1 x2 x3 x4 x5 x6 x7 x8
      = decode (val_main_v107 (F := F) x0 x1 x2 x3 x4 x5 x6 x7 x8) := rfl

/-- The reference's result is the model function of its nine arguments. -/
theorem ref_model (x0 : (⟨S16384x512, .f32⟩ : BufTy).Contents (Elt F)) (x1 : (⟨S512x512, .f32⟩ : BufTy).Contents (Elt F)) (x2 : (⟨S512x256, .f32⟩ : BufTy).Contents (Elt F)) (x3 x4 : (⟨S512x1, .f32⟩ : BufTy).Contents (Elt F)) (x5 x6 : (⟨S256x1, .f32⟩ : BufTy).Contents (Elt F)) (x7 : (⟨S524288, .f32⟩ : BufTy).Contents (Elt F)) (x8 : (⟨S2x524288, .i32⟩ : BufTy).Contents (Elt F)) :
    val_main_v115 (F := F) x0 x1 x2 x3 x4 x5 x6 x7 x8 = model x0 x1 x2 x3 x4 x5 x6 x7 x8 := by
  rw [ref_v115, ref_v107, ref_v56, ref_v55, ref_v4]
  rfl

end Cert.Bridge

end
-- ==== Proof.BridgeAlg.lean ====
/-
  The algebraic claim, assembled.
  At the ideal instance the kernel program's result array ends at the model function of the nine launch arguments
  (Proof/BridgeK.lean, from what each of the three regions leaves), and the reference's result is the same function of
  its arguments (Proof/BridgeRef.lean). From memories that agree on the arguments the two results are therefore equal.
  What the three regions leave and the kernel program's run enter here as hypotheses; the certificate's last module
  supplies them.
-/
import proofs.«140601_j33998961115547_1_alg».proof.Defs
import proofs.«140601_j33998961115547_1_alg».proof.Proof.Gen.Pre_finite_inputs
import proofs.«140601_j33998961115547_1_alg».proof.Proof.Gen.ReferenceIdeal.Run
import proofs.«140601_j33998961115547_1_alg».proof.Proof.BridgeK
import proofs.«140601_j33998961115547_1_alg».proof.Proof.BridgeRef

noncomputable section

namespace Cert.Bridge

open Idealize.ShloMosaic Idealize.ShloMosaic.TcCoe Idealize.SL.Sem

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- From agreeing arguments the two programs end with equal results: both are the model function of the arguments. -/
theorem algebraic_of
    (final0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Hand.dat0 V c).arrAt 2 Cert.KernelIdeal.cfg0.N
      = Host.dotGeneral (F := Ideal) (φ₁ := .f32) (φ₂ := .f32) Cert.ReferenceIdeal.dot_S16384x512_S512x512_S16384x512_1_0_0_1_n_n none (V c Cert.KernelIdeal.main_arg0) (V c Cert.KernelIdeal.main_arg1))
    (final1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Hand.dat1 V c).arrAt 2 Cert.KernelIdeal.cfg1.N
      = Host.dotGeneral (F := Ideal) (φ₁ := .f32) (φ₂ := .f32) Cert.ReferenceIdeal.dot_S16384x512_S512x256_S16384x256_1_0_0_1_n_n none (V c Cert.KernelIdeal.main_v55) (V c Cert.KernelIdeal.main_arg2))
    (final2 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Hand.dat2 V c).arrAt 2 Cert.KernelIdeal.cfg2.N
      = decode (F := Ideal) (V c Cert.KernelIdeal.main_v107))
    (run_main : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v108) = Cert.KernelIdeal.Hand.o6 (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))) :
    Cert.algebraic_KernelIdeal_ReferenceIdeal := by
  intro m ρ m' ρ' _ hagree
  refine ⟨fun c => Cert.KernelIdeal.Hand.o6 (F := Ideal) m c, run_main m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v115 m' c = Cert.KernelIdeal.Hand.o6 (F := Ideal) m c
  rw [Cert.ReferenceIdeal.Read.val_main_v115_eq, ref_model, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (o6_model m c final0 final1 final2).symm

end Cert.Bridge

end
-- ==== Proof.lean ====
/-
  The kernel program is a two-layer graph-attention autoencoder: a projection X·W0 (kernel region 0), an attention layer
  over the edge list as host operations, a projection H·W1 (kernel region 1), a second attention layer, and the decoder
  logistic(H·Hᵀ) (kernel region 2). The reference is the same host operations around three host matrix products.

  Frames. Each program's run is proved whole: the reference's by its generated run; the kernel program's, at any float
  instance, as three regions among three stretches of host operations (Proof/KRun.lean at the word-level instance,
  Proof/KIRun.lean at the ideal instance). Regions 0 and 1 are one-step matrix products — at every grid point the
  accumulator is set to zero, the product of the two blocks is added, and the sum is stored — so the accumulator is
  never read before it is written and may hold anything between points. Region 2 reads one array through two windows,
  which hold a half share of it each.

  Values. At the ideal instance a format change is the identity, zero plus a product is the product, and a block-wise
  product is the product: regions 0 and 1 leave the host's matrix products of their operands, region 2 the reference's
  transposed product followed by the logistic function, which on the host is 1 / (1 + exp (-x)) and in the kernel the
  same expression (Proof/KIVal0.lean, KIVal1.lean, KIVal2.lean). The host operations between the regions are the
  reference's, so both programs compute one function of the nine arguments (Proof/BridgeK.lean, BridgeRef.lean,
  BridgeAlg.lean). No finiteness of the inputs is used.
-/
import proofs.«140601_j33998961115547_1_alg».proof.Defs
import proofs.«140601_j33998961115547_1_alg».proof.Proof.Gen.Kernel
import proofs.«140601_j33998961115547_1_alg».proof.Proof.Gen.KernelIdeal
import proofs.«140601_j33998961115547_1_alg».proof.Proof.Gen.ReferenceIdeal
import proofs.«140601_j33998961115547_1_alg».proof.Proof.Gen.Pre_finite_inputs
import proofs.«140601_j33998961115547_1_alg».proof.Proof.KRun
import proofs.«140601_j33998961115547_1_alg».proof.Proof.KIRun
import proofs.«140601_j33998961115547_1_alg».proof.Proof.KIVal0
import proofs.«140601_j33998961115547_1_alg».proof.Proof.KIVal1
import proofs.«140601_j33998961115547_1_alg».proof.Proof.KIVal2
import proofs.«140601_j33998961115547_1_alg».proof.Proof.BridgeAlg
import Idealize.ShloMosaic.Adequacy
import Idealize.ShloMosaic.Init

noncomputable section

namespace Cert.Proof

open Idealize.ShloMosaic Idealize.SL.Sem

/-- The word-level kernel program runs and leaves its arguments unchanged: its run, with the result dropped. -/
theorem frame_k : Cert.frame_Kernel := fun m ρ _ =>
  (θ_run Cert.Kernel.defs _ _).mono (fun _ h c => (h c).2) (Cert.Kernel.Hand.run_main (F := Bits) m ρ)

/-- The idealized kernel program likewise. -/
theorem frame_ki : Cert.frame_KernelIdeal := fun m ρ _ =>
  (θ_run Cert.KernelIdeal.defs _ _).mono (fun _ h c => (h c).2) (Cert.KernelIdeal.Hand.run_main (F := Ideal) m ρ)

/-- From agreeing arguments the idealized kernel program and the idealized reference end with equal results. -/
theorem algebraic : Cert.algebraic_KernelIdeal_ReferenceIdeal :=
  Cert.Bridge.algebraic_of Cert.KernelIdeal.Val.final0 Cert.KernelIdeal.Val.final1
    (fun V c => (Cert.KernelIdeal.Val.final2 V c).trans rfl) (Cert.KernelIdeal.Hand.run_main (F := Ideal))

theorem claim : Cert.Claim := ⟨Cert.Kernel.Gen.facts, Cert.KernelIdeal.Gen.facts, Cert.ReferenceIdeal.Gen.facts, Cert.Pre_finite_inputs.Gen.facts,
  frame_k, frame_ki, Cert.Bridge.frame_ri, trivial, algebraic⟩

end Cert.Proof

end
